-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S1x3072 : Shape := ⟨2, ![1, 3072]⟩
abbrev S512x16x64 : Shape := ⟨3, ![512, 16, 64]⟩
abbrev S16x512x64 : Shape := ⟨3, ![16, 512, 64]⟩
abbrev S1x16x2048x64 : Shape := ⟨4, ![1, 16, 2048, 64]⟩
abbrev S16x2048x64 : Shape := ⟨3, ![16, 2048, 64]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S64x1024 : Shape := ⟨2, ![64, 1024]⟩
abbrev S1x1024 : Shape := ⟨2, ![1, 1024]⟩

abbrev nBuf : Space → Nat
  | .hbm => 12
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x1024, .bf16⟩
  | .hbm, ⟨6, _⟩ => ⟨S1024x3072, .bf16⟩
  | .hbm, ⟨7, _⟩ => ⟨S1024x1024, .bf16⟩
  | .hbm, ⟨8, _⟩ => ⟨S4x16x2048x64, .bf16⟩
  | .hbm, ⟨9, _⟩ => ⟨S4x16x2048x64, .bf16⟩
  | .hbm, ⟨10, _⟩ => ⟨S4x16x2048x64, .bf16⟩
  | .hbm, ⟨11, _⟩ => ⟨S4x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x3072, .bf16⟩
  | .local _ .vmem, ⟨3, _⟩ => ⟨S3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x16x512x64, .bf16⟩
  | .local _ .vmem, ⟨11, _⟩ => ⟨S1x16x512x64, .bf16⟩
  | .local _ .vmem, ⟨12, _⟩ => ⟨S1x16x2048x64, .bf16⟩
  | .local _ .vmem, ⟨13, _⟩ => ⟨S1x16x2048x64, .bf16⟩
  | .local _ .vmem, ⟨14, _⟩ => ⟨S1x16x2048x64, .bf16⟩
  | .local _ .vmem, ⟨15, _⟩ => ⟨S1x16x2048x64, .bf16⟩
  | .local _ .vmem, ⟨16, _⟩ => ⟨S1024x1024, .bf16⟩
  | .local _ .vmem, ⟨17, _⟩ => ⟨S1024, .f32⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x16x2048x64_S1x16x2048x64_0_0_0_0 : ∀ a, (![0, 0, 0, 0] : Fin 4 → Nat) a + S1x16x2048x64.size a ≤ S1x16x2048x64.size a
  h_S1x16x2048x64 : 0 < S1x16x2048x64.numel
  shapeCasts_S1x16x2048x64_S16x2048x64 : S1x16x2048x64.ShapeCasts S16x2048x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S16x512x64_o0_0_0_S1x512x64 : S16x512x64.Slices ![0, 0, 0] S1x512x64
  shapeCasts_S1x512x64_S512x64 : S1x512x64.ShapeCasts S512x64
  slices_S16x2048x64_o0_0_0_S1x2048x64 : S16x2048x64.Slices ![0, 0, 0] S1x2048x64
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  slices_S1024x1024_o0_0_S64x1024 : S1024x1024.Slices ![0, 0] S64x1024
  slices_S16x512x64_o1_0_0_S1x512x64 : S16x512x64.Slices ![1, 0, 0] S1x512x64
  slices_S16x2048x64_o1_0_0_S1x2048x64 : S16x2048x64.Slices ![1, 0, 0] S1x2048x64
  slices_S1024x1024_o64_0_S64x1024 : S1024x1024.Slices ![64, 0] S64x1024
  slices_S16x512x64_o2_0_0_S1x512x64 : S16x512x64.Slices ![2, 0, 0] S1x512x64
  slices_S16x2048x64_o2_0_0_S1x2048x64 : S16x2048x64.Slices ![2, 0, 0] S1x2048x64
  slices_S1024x1024_o128_0_S64x1024 : S1024x1024.Slices ![128, 0] S64x1024
  slices_S16x512x64_o3_0_0_S1x512x64 : S16x512x64.Slices ![3, 0, 0] S1x512x64
  slices_S16x2048x64_o3_0_0_S1x2048x64 : S16x2048x64.Slices ![3, 0, 0] S1x2048x64
  slices_S1024x1024_o192_0_S64x1024 : S1024x1024.Slices ![192, 0] S64x1024
  slices_S16x512x64_o4_0_0_S1x512x64 : S16x512x64.Slices ![4, 0, 0] S1x512x64
  slices_S16x2048x64_o4_0_0_S1x2048x64 : S16x2048x64.Slices ![4, 0, 0] S1x2048x64
  slices_S1024x1024_o256_0_S64x1024 : S1024x1024.Slices ![256, 0] S64x1024
  slices_S16x512x64_o5_0_0_S1x512x64 : S16x512x64.Slices ![5, 0, 0] S1x512x64
  slices_S16x2048x64_o5_0_0_S1x2048x64 : S16x2048x64.Slices ![5, 0, 0] S1x2048x64
  slices_S1024x1024_o320_0_S64x1024 : S1024x1024.Slices ![320, 0] S64x1024
  slices_S16x512x64_o6_0_0_S1x512x64 : S16x512x64.Slices ![6, 0, 0] S1x512x64
  slices_S16x2048x64_o6_0_0_S1x2048x64 : S16x2048x64.Slices ![6, 0, 0] S1x2048x64
  slices_S1024x1024_o384_0_S64x1024 : S1024x1024.Slices ![384, 0] S64x1024
  slices_S16x512x64_o7_0_0_S1x512x64 : S16x512x64.Slices ![7, 0, 0] S1x512x64
  slices_S16x2048x64_o7_0_0_S1x2048x64 : S16x2048x64.Slices ![7, 0, 0] S1x2048x64
  slices_S1024x1024_o448_0_S64x1024 : S1024x1024.Slices ![448, 0] S64x1024
  slices_S16x512x64_o8_0_0_S1x512x64 : S16x512x64.Slices ![8, 0, 0] S1x512x64
  slices_S16x2048x64_o8_0_0_S1x2048x64 : S16x2048x64.Slices ![8, 0, 0] S1x2048x64
  slices_S1024x1024_o512_0_S64x1024 : S1024x1024.Slices ![512, 0] S64x1024
  slices_S16x512x64_o9_0_0_S1x512x64 : S16x512x64.Slices ![9, 0, 0] S1x512x64
  slices_S16x2048x64_o9_0_0_S1x2048x64 : S16x2048x64.Slices ![9, 0, 0] S1x2048x64
  slices_S1024x1024_o576_0_S64x1024 : S1024x1024.Slices ![576, 0] S64x1024
  slices_S16x512x64_o10_0_0_S1x512x64 : S16x512x64.Slices ![10, 0, 0] S1x512x64
  slices_S16x2048x64_o10_0_0_S1x2048x64 : S16x2048x64.Slices ![10, 0, 0] S1x2048x64
  slices_S1024x1024_o640_0_S64x1024 : S1024x1024.Slices ![640, 0] S64x1024
  slices_S16x512x64_o11_0_0_S1x512x64 : S16x512x64.Slices ![11, 0, 0] S1x512x64
  slices_S16x2048x64_o11_0_0_S1x2048x64 : S16x2048x64.Slices ![11, 0, 0] S1x2048x64
  slices_S1024x1024_o704_0_S64x1024 : S1024x1024.Slices ![704, 0] S64x1024
  slices_S16x512x64_o12_0_0_S1x512x64 : S16x512x64.Slices ![12, 0, 0] S1x512x64
  slices_S16x2048x64_o12_0_0_S1x2048x64 : S16x2048x64.Slices ![12, 0, 0] S1x2048x64
  slices_S1024x1024_o768_0_S64x1024 : S1024x1024.Slices ![768, 0] S64x1024
  slices_S16x512x64_o13_0_0_S1x512x64 : S16x512x64.Slices ![13, 0, 0] S1x512x64
  slices_S16x2048x64_o13_0_0_S1x2048x64 : S16x2048x64.Slices ![13, 0, 0] S1x2048x64
  slices_S1024x1024_o832_0_S64x1024 : S1024x1024.Slices ![832, 0] S64x1024
  slices_S16x512x64_o14_0_0_S1x512x64 : S16x512x64.Slices ![14, 0, 0] S1x512x64
  slices_S16x2048x64_o14_0_0_S1x2048x64 : S16x2048x64.Slices ![14, 0, 0] S1x2048x64
  slices_S1024x1024_o896_0_S64x1024 : S1024x1024.Slices ![896, 0] S64x1024
  slices_S16x512x64_o15_0_0_S1x512x64 : S16x512x64.Slices ![15, 0, 0] S1x512x64
  slices_S16x2048x64_o15_0_0_S1x2048x64 : S16x2048x64.Slices ![15, 0, 0] S1x2048x64
  slices_S1024x1024_o960_0_S64x1024 : S1024x1024.Slices ![960, 0] S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .bf16 = 32 ∨ (Rect.block (s := S4x2048x1024) S1x512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .bf16 = 32 ∨ (Rect.block (s := S4x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x512x64.size a ≤ S4x16x2048x64.size a
  hwx1_0 : ∀ i : grid1.Coords, EltTy.bits .bf16 = 32 ∨ (Rect.block (s := S4x16x2048x64) S1x16x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S4x16x2048x64.size a
  hwx1_1 : ∀ i : grid1.Coords, EltTy.bits .bf16 = 32 ∨ (Rect.block (s := S4x16x2048x64) S1x16x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S4x16x2048x64.size a
  hwx1_2 : ∀ i : grid1.Coords, EltTy.bits .bf16 = 32 ∨ (Rect.block (s := S4x16x2048x64) S1x16x2048x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x16x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x3x16x64, .f32⟩
  | .hbm, ⟨10, _⟩ => ⟨S3x4x16x2048x64, .f32⟩
  | .hbm, ⟨11, _⟩ => ⟨S1x4x16x2048x64, .f32⟩
  | .hbm, ⟨12, _⟩ => ⟨S4x16x2048x64, .f32⟩
  | .hbm, ⟨13, _⟩ => ⟨S1x4x16x2048x64, .f32⟩
  | .hbm, ⟨14, _⟩ => ⟨S4x16x2048x64, .f32⟩
  | .hbm, ⟨15, _⟩ => ⟨S1x4x16x2048x64, .f32⟩
  | .hbm, ⟨16, _⟩ => ⟨S4x16x2048x64, .f32⟩
  | .hbm, ⟨17, _⟩ => ⟨S4x16x2048x2048, .f32⟩
  | .hbm, ⟨18, _⟩ => ⟨S_, .f32⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048, .f32⟩
  | .hbm, ⟨23, _⟩ => ⟨S_, .f32⟩
  | .hbm, ⟨24, _⟩ => ⟨S4x16x2048, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S_, .f32⟩
  | .hbm, ⟨31, _⟩ => ⟨S4x16x2048, .f32⟩
  | .hbm, ⟨32, _⟩ => ⟨S4x16x2048x1, .f32⟩
  | .hbm, ⟨33, _⟩ => ⟨S4x16x2048x2048, .f32⟩
  | .hbm, ⟨34, _⟩ => ⟨S4x16x2048x2048, .f32⟩
  | .hbm, ⟨35, _⟩ => ⟨S4x16x2048x64, .f32⟩
  | .hbm, ⟨36, _⟩ => ⟨S4x2048x16x64, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.KernelRun.lean ====
/-
  The idealized kernel program's run, with every buffer's final contents kept.

  The program is a stretch of host operations (three changes of float format), then the projection call, then the
  attention call. The buffer contents at each boundary are a fold from the launch memory: after the host stretch;
  after the first call, whose three output arrays hold what its grid points wrote back; after the second call,
  likewise. Every weakly fair execution terminates, without a fault, in a state whose every unscoped buffer holds
  that last fold's contents. The frame claim and the value claim are both projections of this one run: the former
  reads the argument arrays (which no step writes), the latter the result array.
-/
import proofs.«127099_j90941637525735_2_alg».proof.Proof.FrameKernelIdeal

set_option maxRecDepth 16384

noncomputable section

namespace Cert.Mha.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the memory `m` terminates, nothing faulting, and on every core each
    unscoped buffer ends at the contents the fold through the program's three segments gives it (`Gen.W3`). -/
theorem contents : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result array's final contents: what the attention call's grid points wrote back into it. -/
theorem result_contents : θ_run defs (onTc (τ := τ) (main (F := F))) ⟨m, fun _ => 0, ρ⟩ (fun r => ∀ c : Dev nD,
      r.2.mem ((c.tc : Thread nD τ).loc main_v4) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (contents m ρ)

end Cert.Mha.Run

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«127099_j90941637525735_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.LibRowSoftmax.lean ====
/-
  The shifted softmax along the rows of an `[A, B]` array on the extended reals, optionally after one entry per row is
  overwritten — for any sizes.

  A row is a family `x : Fin B → EReal`; a row's label is a 32-bit word `g`.

  * `marked v g x` is the row with the entry of the labelled column replaced by `v`: column `k` is the labelled one
    when the word of `k` is `g`.
  * `softmax m₀ y` is the softmax of a row `y` in the shifted form: with `M` the maximum of the row (the fold of
    `max` over the columns, started from `m₀`), entry `q` is `exp (y q − M) / ∑ k, exp (y k − M)`.
  * `ofRows v m₀ x g` is the whole array: entry `(r, q)` is `softmax m₀ (marked v (g r) (row r of x)) q`.
  * `max_rowMax`: a maximum started from `m₀` is at least `m₀` (a second `max` with `m₀` changes nothing).
  * `softmax_block_apply` reads a tiled unit's spelling of the softmax of a block at an entry: the row maximum and
    the row sum are reductions kept as a column `[A, 1]` and spread back along the rows.

  Nothing here needs the entries to be finite.
-/
import proofs.«127099_j90941637525735_2_alg».proof.Proof.LibRowLayer

noncomputable section

open scoped BigOperators

namespace Cert.RowSoftmax

open Idealize.ShloMosaic Idealize.ShloMosaic.ValueIdx Cert.RowLayer

variable {B : ℕ}

/-- The row `x` with the entry of the column whose word is `g` replaced by `v`. -/
def marked (v : EReal) (g : BitVec 32) (x : Fin B → EReal) : Fin B → EReal :=
  fun k => if BitVec.ofNat 32 k.val = g then v else x k

/-- The maximum of a row, started from `m₀`. -/
def rowMax (m₀ : EReal) (y : Fin B → EReal) : EReal := (Finset.univ : Finset (Fin B)).fold max m₀ y

/-- The shifted softmax of a row. -/
def softmax (m₀ : EReal) (y : Fin B → EReal) (q : Fin B) : EReal :=
  Ideal.div (Ideal.exp (y q - rowMax m₀ y)) (∑ k : Fin B, Ideal.exp (y k - rowMax m₀ y))

/-- The whole result: entry `(r, q)` is the softmax of row `r`, marked at the column its label `g r` names, at `q`. -/
def ofRows {A : ℕ} (v m₀ : EReal) (x : (⟨2, ![A, B]⟩ : Shape).Idx → EReal) (g : (⟨1, ![A]⟩ : Shape).Idx → BitVec 32) :
    (⟨2, ![A, B]⟩ : Shape).Idx → EReal :=
  fun i => softmax m₀ (marked v (g (ix1 (i 0))) (fun k => x (ix2 (i 0) k))) (i 1)

/-- A maximum started from `m₀` is at least `m₀`, so taking the maximum with `m₀` once more changes nothing. -/
theorem max_rowMax (m₀ : EReal) (y : Fin B → EReal) : max m₀ (rowMax m₀ y) = rowMax m₀ y :=
  max_eq_right ((Finset.le_fold_max m₀).2 (Or.inl le_rfl))

/-- THE TILED UNIT'S SOFTMAX OF A BLOCK `a : [A, B]`, read at `(p, q)`: the exponentials of the entries less the row
    maximum, divided by their row sum — both reductions kept as a column `[A, 1]` and spread back along the rows. -/
theorem softmax_block_apply {A : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    divf (exp (subf a (broadcastTo ⟨2, ![A, B]⟩ (shapeCast ⟨2, ![A, 1]⟩ (multiReduction .maximumf [1] ⟨1, ![A]⟩ a accM h hφ hM) hc) hb)))
        (broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb) (ix2 p q)
      = softmax (Ideal.ofBits .f32 accM) (fun k => a (ix2 p k)) q := by
  have hm : ∀ c : Fin B,
      broadcastTo ⟨2, ![A, B]⟩ (shapeCast ⟨2, ![A, 1]⟩ (multiReduction .maximumf [1] ⟨1, ![A]⟩ a accM h hφ hM) hc) hb (ix2 p c)
        = rowMax (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb (ix2 p q)
        = ∑ k : Fin B, Ideal.exp (a (ix2 p k) - rowMax (Ideal.ofBits .f32 accM) (fun k => a (ix2 p k))) :=
    (broadcastTo_a1_ab_apply _ hb p q).trans
      ((shapeCast_a_a1_apply _ hc p 0).trans ((rowSum_apply _ accA h hφ hA p).trans
        (Finset.sum_congr rfl fun k _ => congrArg (fun m => Ideal.exp (a (ix2 p k) - m)) (hm k))))
  show Ideal.div (Ideal.exp (a (ix2 p q) - _)) _ = _
  rw [hm q, hs]
  rfl

end Cert.RowSoftmax

end
-- ==== Proof.Spec.lean ====
/-
  Multi-head attention over the extended reals, as one function of the five argument arrays.

  The input `X : [4, 2048, 1024]` is projected by `W : [1024, 3072]` plus the bias `bq : [3072]`; the 3072 columns of the
  projection are three parts (queries, keys, values) of 16 heads of 64 coordinates each, so coordinate `d` of head `h`
  of part `s` is column `s · 1024 + h · 64 + d`. For a batch `b`, a head `h` and a query position `l`, the scores against
  the 2048 key positions are the dot products of the query row with the key rows, times the scale; their softmax along
  the key positions (in the shifted form: the row maximum subtracted before the exponential) weighs the value rows. The
  16 heads' outputs, laid side by side as 1024 columns (column `k` is coordinate `k % 64` of head `k / 64`), are
  multiplied by `Wo : [1024, 1024]` and the bias `bo : [1024]` is added.

  Nothing here asks an entry to be finite.
-/
import Idealize.ShloMosaic.Lib.ValueIdx
import proofs.«127099_j90941637525735_2_alg».proof.Proof.LibRowSoftmax

noncomputable section

open scoped BigOperators

namespace Cert.Mha

open Idealize.ShloMosaic Idealize.ShloMosaic.ValueIdx Cert.RowSoftmax

/-- The column of the fused projection holding coordinate `d` of head `h` of part `s` (0 queries, 1 keys, 2 values). -/
def col (s : Fin 3) (h : Fin 16) (d : Fin 64) : Fin 3072 :=
  ⟨s.val * 1024 + h.val * 64 + d.val, by have := s.isLt; have := h.isLt; have := d.isLt; omega⟩

/-- Entry `(b, l, j)` of the fused projection `X · W + bq`. -/
def proj (X : (⟨3, ![4, 2048, 1024]⟩ : Shape).Idx → EReal) (W : (⟨2, ![1024, 3072]⟩ : Shape).Idx → EReal)
    (bq : (⟨1, ![3072]⟩ : Shape).Idx → EReal) (b : Fin 4) (l : Fin 2048) (j : Fin 3072) : EReal :=
  (∑ k : Fin 1024, X (ix3 b l k) * W (ix2 k j)) + bq (ix1 j)

/-- Part `s` of the projection laid out per head: entry `(b, h, l, d)`. -/
def part (s : Fin 3) (X : (⟨3, ![4, 2048, 1024]⟩ : Shape).Idx → EReal) (W : (⟨2, ![1024, 3072]⟩ : Shape).Idx → EReal)
    (bq : (⟨1, ![3072]⟩ : Shape).Idx → EReal) : (⟨4, ![4, 16, 2048, 64]⟩ : Shape).Idx → EReal :=
  fun i => proj X W bq (i 0) (i 2) (col s (i 1) (i 3))

/-- The scale of the scores, `1/8`, as the binary32 word both programs spell it with. -/
def scale : EReal := Ideal.ofBits .f32 0x3E000000#32

/-- The value a row maximum is started from: the word of `-∞`. -/
def negInf : EReal := Ideal.ofBits .f32 0xFF800000#32

/-- One query row `q` attending to the key rows `k` and value rows `v`: coordinate `d` of the weighted mean of the
    value rows, the weights being the softmax of the scaled dot products of `q` with the key rows. -/
def attend {J D : ℕ} (q : Fin D → EReal) (k v : Fin J → Fin D → EReal) (d : Fin D) : EReal :=
  ∑ j : Fin J, softmax negInf (fun j' => (∑ d' : Fin D, q d' * k j' d') * scale) j * v j d

/-- Coordinate `d` of head `h`'s output at batch `b`, query position `l`, from the per-head arrays `[4, 16, 2048, 64]`. -/
def heads (Q K V : (⟨4, ![4, 16, 2048, 64]⟩ : Shape).Idx → EReal) (b : Fin 4) (l : Fin 2048) (h : Fin 16) (d : Fin 64) :
    EReal :=
  attend (fun d' => Q (ix4 b h l d')) (fun j d' => K (ix4 b h j d')) (fun j d' => V (ix4 b h j d')) d

/-- The heads' outputs side by side (column `k` is coordinate `k % 64` of head `k / 64`) times `Wo`, plus `bo`. -/
def mix (Q K V : (⟨4, ![4, 16, 2048, 64]⟩ : Shape).Idx → EReal) (Wo : (⟨2, ![1024, 1024]⟩ : Shape).Idx → EReal)
    (bo : (⟨1, ![1024]⟩ : Shape).Idx → EReal) : (⟨3, ![4, 2048, 1024]⟩ : Shape).Idx → EReal :=
  fun i => (∑ k : Fin 1024, heads Q K V (i 0) (i 1) ⟨k.val / 64, by have := k.isLt; omega⟩ ⟨k.val % 64, by omega⟩
      * Wo (ix2 k (i 2))) + bo (ix1 (i 2))

/-- The whole layer as one function of the argument arrays. -/
def result (X : (⟨3, ![4, 2048, 1024]⟩ : Shape).Idx → EReal) (W : (⟨2, ![1024, 3072]⟩ : Shape).Idx → EReal)
    (bq : (⟨1, ![3072]⟩ : Shape).Idx → EReal) (Wo : (⟨2, ![1024, 1024]⟩ : Shape).Idx → EReal)
    (bo : (⟨1, ![1024]⟩ : Shape).Idx → EReal) : (⟨3, ![4, 2048, 1024]⟩ : Shape).Idx → EReal :=
  mix (part 0 X W bq) (part 1 X W bq) (part 2 X W bq) Wo bo

end Cert.Mha

end
-- ==== Proof.Region0.lean ====
/-
  What the projection kernel leaves in its three output arrays.

  The first kernel of the layer walks a 4 × 4 grid: point `(b, q)` takes the block of rows `512 q … 512 q + 511` of batch
  `b` of the input `X : [4, 2048, 1024]`, the whole weight matrix `W : [1024, 3072]` and the whole bias `bq : [3072]`,
  forms the block's fused projection `X · W + bq : [512, 3072]`, and writes its three bands of 1024 columns (queries,
  keys, values), each re-laid per head as `[1, 16, 512, 64]`, to block `(b, 0, q, 0)` of the three output arrays
  `[4, 16, 2048, 64]`.

  This file reads that off, at the extended reals and for ANY contents of the arrays when the kernel is entered: first
  one block's stored value entry by entry (the matrix product as a sum over the 1024 shared coordinates, then the band,
  the re-laying and the transpose as a change of index), then the three input blocks as parts of their arrays, then the
  blocks' positions in the output arrays; the 16 blocks tile each output array, so each array ends as ONE function of
  the input arrays, `Cert.Mha.part s`: entry `(b, h, l, d)` is entry `(b, l, 1024 s + 64 h + d)` of `X · W + bq`.
-/
import proofs.«127099_j90941637525735_2_alg».proof.Proof.FrameKernelIdeal
import proofs.«127099_j90941637525735_2_alg».proof.Proof.Spec
import proofs.«127099_j90941637525735_2_alg».proof.Proof.LibPlainDot
import Idealize.ShloMosaic.Lib.Pipeline.Value
import Idealize.ShloMosaic.Lib.ValueIdx
import Idealize.ShloMosaic.Lib.ValueLayout

noncomputable section

open scoped BigOperators

namespace Cert.Mha.Region0

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-! ## One block's stored value, entry by entry -/

/-- The printed dimension numbers of the projection are those of a plain matrix product. -/
theorem dims_plain : Cert.PlainDot.IsPlain dot_S512x1024_S1024x3072_S512x3072_1_0_0_1_n_n :=
  ⟨rfl, rfl, rfl, rfl, rfl, rfl⟩

/-- Entry `(p, j)` of the fused projection of one block of 512 rows: row `p` of the block times column `j` of the
    weights, plus entry `j` of the bias. The accumulator starts at zero, the bias row is spread over the 512 rows, and
    the rounding of the sum to a narrower format is the identity on extended reals. -/
theorem fused_apply (x0 : Vec Ideal S1x512x1024 .bf16) (x1 : Vec Ideal S1024x3072 .bf16) (x2 : Vec Ideal S3072 .f32)
    (p : Fin 512) (j : Fin 3072) :
    k0_pay1 x0 x1 x2 (ix2 p j) = (∑ k : Fin 1024, x0 (ix3 0 p k) * x1 (ix2 k j)) + x2 (ix1 j) := by
  unfold k0_pay1
  show (matmul (F := Ideal) dot_S512x1024_S1024x3072_S512x3072_1_0_0_1_n_n none
          (shapeCast S512x1024 x0 shapeCasts_S1x512x1024_S512x1024)
          (shapeCast S1024x3072 x1 shapeCasts_S1024x3072_S1024x3072)
          (constant (F := Ideal) S512x3072 .f32 0x00000000#32) (ix2 p j) : EReal)
      + (broadcastTo S512x3072 (shapeCast S1x3072 x2 shapeCasts_S3072_S1x3072) broadcasts_S1x3072_S512x3072 (ix2 p j) : EReal) = _
  refine congrArg₂ (· + ·) ?_ ?_
  · -- the product into the zero accumulator is the sum over the contraction index, which for a plain product is the
    -- shared coordinate `k`; the left operand is the block with its unit batch axis dropped
    refine (Ideal.matmul_constant_zero_apply _ none _ _ (ix2 p j)).trans ?_
    refine (Cert.PlainDot.sum_contr _ dims_plain _ _ p j).trans ?_
    refine Finset.sum_congr rfl fun k _ => ?_
    rw [shapeCast_1ab_ab_apply, shapeCast_self]
  · -- the bias as one row, spread over the rows
    rw [broadcastTo_1b_ab_apply, shapeCast_a_1a_apply]

/-- A band of 1024 columns of a 512-row block, starting at column `o`, re-laid as 16 heads of 64 coordinates with the
    head in front of the row: entry `(u, h, p, d)` of the result is entry `(p, o + 64 h + d)` of the block. The slice
    shifts the column by `o`; the cast to `[512, 16, 64]` keeps the row-major position, so column `64 h + d` becomes
    `(h, d)`; the transpose exchanges row and head; the last cast only adds a unit axis in front. -/
theorem heads_layout_apply {α : Type} (o : Nat) (Y : S512x3072.Idx → α) (hs : S512x3072.Slices ![0, o] S512x1024)
    (u : Fin 1) (h : Fin 16) (p : Fin 512) (d : Fin 64) (j : Fin 3072) (hj : j.val = o + (h.val * 64 + d.val)) :
    shapeCast S1x16x512x64
        (transpose S16x512x64 [1, 0, 2]
          (shapeCast S512x16x64 (extractStridedSlice S512x1024 ![0, o] Y hs) shapeCasts_S512x1024_S512x16x64)
          transposes_S512x16x64_p1_0_2_S16x512x64)
        shapeCasts_S16x512x64_S1x16x512x64 (ix4 u h p d)
      = Y (ix2 p j) := by
  have hh := h.isLt
  have hd := d.isLt
  rw [shapeCast_abc_1abc_apply]
  rw [transpose_apply _ _ _ (ix3 h p d) (ix3 p h d) (fun b => match b with | ⟨0, _⟩ => rfl | ⟨1, _⟩ => rfl | ⟨2, _⟩ => rfl)]
  rw [shapeCast_apply _ _ (ix3 p h d) (ix2 p (⟨h.val * 64 + d.val, by omega⟩ : Fin 1024)) (by
    rw [Shape.rowMajor_val_two, Shape.rowMajor_val_three]
    show p.val * 1024 + (h.val * 64 + d.val) = (p.val * 16 + h.val) * 64 + d.val
    omega)]
  exact slice2_axis1_apply o Y hs p _ j hj

/-- The query band of a block: entry `(u, h, p, d)` is the fused projection's entry at row `p`, column `col 0 h d`. -/
theorem queries_layout (x0 : Vec Ideal S1x512x1024 .bf16) (x1 : Vec Ideal S1024x3072 .bf16) (x2 : Vec Ideal S3072 .f32)
    (u : Fin 1) (h : Fin 16) (p : Fin 512) (d : Fin 64) :
    k0_pay2 x0 x1 x2 (ix4 u h p d) = k0_pay1 x0 x1 x2 (ix2 p (Cert.Mha.col 0 h d)) := by
  unfold k0_pay2
  exact heads_layout_apply 0 (k0_pay1 x0 x1 x2) slices_S512x3072_o0_0_S512x1024 u h p d (Cert.Mha.col 0 h d) (by
    show 0 * 1024 + h.val * 64 + d.val = 0 + (h.val * 64 + d.val); omega)

/-- The key band of a block: the columns from 1024 on, so column `col 1 h d`. -/
theorem keys_layout (x0 : Vec Ideal S1x512x1024 .bf16) (x1 : Vec Ideal S1024x3072 .bf16) (x2 : Vec Ideal S3072 .f32)
    (u : Fin 1) (h : Fin 16) (p : Fin 512) (d : Fin 64) :
    k0_pay3 x0 x1 x2 (ix4 u h p d) = k0_pay1 x0 x1 x2 (ix2 p (Cert.Mha.col 1 h d)) := by
  unfold k0_pay3
  exact heads_layout_apply 1024 (k0_pay1 x0 x1 x2) slices_S512x3072_o0_1024_S512x1024 u h p d (Cert.Mha.col 1 h d) (by
    show 1 * 1024 + h.val * 64 + d.val = 1024 + (h.val * 64 + d.val); omega)

/-- The value band of a block: the columns from 2048 on, so column `col 2 h d`. -/
theorem values_layout (x0 : Vec Ideal S1x512x1024 .bf16) (x1 : Vec Ideal S1024x3072 .bf16) (x2 : Vec Ideal S3072 .f32)
    (u : Fin 1) (h : Fin 16) (p : Fin 512) (d : Fin 64) :
    k0_pay4 x0 x1 x2 (ix4 u h p d) = k0_pay1 x0 x1 x2 (ix2 p (Cert.Mha.col 2 h d)) := by
  unfold k0_pay4
  exact heads_layout_apply 2048 (k0_pay1 x0 x1 x2) slices_S512x3072_o0_2048_S512x1024 u h p d (Cert.Mha.col 2 h d) (by
    show 2 * 1024 + h.val * 64 + d.val = 2048 + (h.val * 64 + d.val); omega)

/-! ## The input blocks as parts of their arrays -/

-- the contents of the arrays when the kernel is entered: anything
variable (V : (c : Dev nD) → (b : Ref sig .tc) → Buf (Elt Ideal) ((c : Thread nD τ).loc b))

/-- The block index maps of the three input windows, decided over the 16 grid points: the input's block moves along
    the batch and the row axes only and spans all 1024 columns; the weights and the bias are one block each. -/
theorem input_index_facts : ∀ t : Fin cfg0.N,
    win0_0.index t (2 : Fin 3) = 0
    ∧ win0_1.index t (0 : Fin 2) = 0 ∧ win0_1.index t (1 : Fin 2) = 0
    ∧ win0_2.index t (0 : Fin 1) = 0
    ∧ win0_0.index t (0 : Fin 3) ≤ 3 ∧ win0_0.index t (1 : Fin 3) ≤ 3 :=
  (by decide +kernel : ∀ t : Fin grid0.N, _)

/-- The input's block at point `t`, entry `(u, p, k)`, is the input array's entry at the block's batch `b` and at row
    `l = 512 · (block of rows) + p`: an element of a block sits, on each axis, at block index × block size + its
    coordinate inside the block. -/
theorem x_block_apply (c : Dev nD) (t : Fin cfg0.N) (u : Fin 1) (p : Fin 512) (k : Fin 1024) (b : Fin 4) (l : Fin 2048)
    (hb : b.val = win0_0.index t (0 : Fin 3)) (hl : l.val = win0_0.index t (1 : Fin 3) * 512 + p.val)
    (hk : win0_0.index t (2 : Fin 3) = 0) :
    (iblk0 V c 0 t : Vec Ideal S1x512x1024 .bf16) (ix3 u p k) = (V c main_v0 : S4x2048x1024.Idx → EReal) (ix3 b l k) := by
  unfold iblk0
  rw [View.read_apply]
  show (V c main_v0 : S4x2048x1024.Idx → EReal) _ = _
  refine congrArg _ (funext fun a => Fin.ext ?_)
  match a with
  | ⟨0, _⟩ => show win0_0.index t (0 : Fin 3) * 1 + 1 * u.val = b.val; omega
  | ⟨1, _⟩ => show win0_0.index t (1 : Fin 3) * 512 + 1 * p.val = l.val; omega
  | ⟨2, _⟩ => show win0_0.index t (2 : Fin 3) * 1024 + 1 * k.val = k.val; omega

/-- The weights' one block is the whole matrix. -/
theorem w_block_apply (c : Dev nD) (t : Fin cfg0.N) (k : Fin 1024) (j : Fin 3072)
    (h0 : win0_1.index t (0 : Fin 2) = 0) (h1 : win0_1.index t (1 : Fin 2) = 0) :
    (iblk0 V c 1 t : Vec Ideal S1024x3072 .bf16) (ix2 k j) = (V c main_v1 : S1024x3072.Idx → EReal) (ix2 k j) := by
  unfold iblk0
  rw [View.read_apply]
  show (V c main_v1 : S1024x3072.Idx → EReal) _ = _
  refine congrArg _ (funext fun a => Fin.ext ?_)
  match a with
  | ⟨0, _⟩ => show win0_1.index t (0 : Fin 2) * 1024 + 1 * k.val = k.val; omega
  | ⟨1, _⟩ => show win0_1.index t (1 : Fin 2) * 3072 + 1 * j.val = j.val; omega

/-- The bias' one block is the whole vector. -/
theorem bias_block_apply (c : Dev nD) (t : Fin cfg0.N) (j : Fin 3072) (h0 : win0_2.index t (0 : Fin 1) = 0) :
    (iblk0 V c 2 t : Vec Ideal S3072 .f32) (ix1 j) = (V c main_arg2 : S3072.Idx → EReal) (ix1 j) := by
  unfold iblk0
  rw [View.read_apply]
  show (V c main_arg2 : S3072.Idx → EReal) _ = _
  refine congrArg _ (funext fun a => Fin.ext ?_)
  match a with
  | ⟨0, _⟩ => show win0_2.index t (0 : Fin 1) * 3072 + 1 * j.val = j.val; omega

/-- The fused projection of the blocks at point `t`, at row `p` and the column of coordinate `d` of head `h` of part
    `s`, is entry `(b, h, l, d)` of part `s` of the whole arrays' projection, `b` the point's batch and `l` the `p`-th
    row of the point's block of rows. -/
theorem block_part_apply (c : Dev nD) (t : Fin cfg0.N) (s : Fin 3) (h : Fin 16) (p : Fin 512) (d : Fin 64)
    (b : Fin 4) (l : Fin 2048) (hb : b.val = win0_0.index t (0 : Fin 3))
    (hl : l.val = win0_0.index t (1 : Fin 3) * 512 + p.val) :
    k0_pay1 (iblk0 V c 0 t) (iblk0 V c 1 t) (iblk0 V c 2 t) (ix2 p (Cert.Mha.col s h d))
      = Cert.Mha.part s (V c main_v0) (V c main_v1) (V c main_arg2) (ix4 b h l d) := by
  obtain ⟨e2, w0, w1, b0, -, -⟩ := input_index_facts t
  refine (fused_apply _ _ _ p _).trans ?_
  show _ = Cert.Mha.proj (V c main_v0) (V c main_v1) (V c main_arg2) b l (Cert.Mha.col s h d)
  unfold Cert.Mha.proj
  refine congrArg₂ (· + ·) (Finset.sum_congr rfl fun k _ => ?_) (bias_block_apply V c t _ b0)
  rw [x_block_apply V c t 0 p k b l hb hl e2, w_block_apply V c t k _ w0 w1]

/-! ## The output blocks' places, and the arrays after the run -/

/-- The offsets of a load or store of a whole rank-1 buffer are all zero. -/
theorem zeros1 : (![0] : Fin 1 → Nat) = fun _ => 0 := funext fun a => by fin_cases a <;> rfl
/-- The same at rank 2. -/
theorem zeros2 : (![0, 0] : Fin 2 → Nat) = fun _ => 0 := funext fun a => by fin_cases a <;> rfl
/-- The same at rank 3. -/
theorem zeros3 : (![0, 0, 0] : Fin 3 → Nat) = fun _ => 0 := funext fun a => by fin_cases a <;> rfl
/-- The same at rank 4. -/
theorem zeros4 : (![0, 0, 0, 0] : Fin 4 → Nat) = fun _ => 0 := funext fun a => by fin_cases a <;> rfl

/-- An entry of an output block in its array. For a band `pay` of the fused projection that is part `s` per head, and a
    block index `idx` that follows the input's (same batch, same block of rows, all heads and coordinates in one block):
    entry `(u, h, p, d)` of the band of the blocks at point `t` is entry `i` of part `s` of the whole arrays'
    projection, `i` the place of `(u, h, p, d)` in the array: block index × block size + coordinate, on each axis. -/
theorem out_entry (c : Dev nD) (t : Fin cfg0.N) (s : Fin 3)
    (pay : Vec Ideal S1x512x1024 .bf16 → Vec Ideal S1024x3072 .bf16 → Vec Ideal S3072 .f32 → FVec Ideal S1x16x512x64 .bf16)
    (hpay : ∀ x0 x1 x2 (u : Fin 1) (h : Fin 16) (p : Fin 512) (d : Fin 64),
      pay x0 x1 x2 (ix4 u h p d) = k0_pay1 x0 x1 x2 (ix2 p (Cert.Mha.col s h d)))
    (idx : Fin 4 → Nat)
    (hidx : idx 0 = win0_0.index t (0 : Fin 3) ∧ idx 1 = 0 ∧ idx 2 = win0_0.index t (1 : Fin 3) ∧ idx 3 = 0)
    (u : Fin 1) (h : Fin 16) (p : Fin 512) (d : Fin 64) (i : S4x16x2048x64.Idx)
    (hi0 : (i 0).val = idx 0 * 1 + 1 * u.val) (hi1 : (i 1).val = idx 1 * 16 + 1 * h.val)
    (hi2 : (i 2).val = idx 2 * 512 + 1 * p.val) (hi3 : (i 3).val = idx 3 * 64 + 1 * d.val) :
    pay (iblk0 V c 0 t) (iblk0 V c 1 t) (iblk0 V c 2 t) (ix4 u h p d)
      = Cert.Mha.part s (V c main_v0) (V c main_v1) (V c main_arg2) i := by
  obtain ⟨e0, e1, e2, e3⟩ := hidx
  obtain ⟨-, -, -, -, hb, hq⟩ := input_index_facts t
  have hu : u.val = 0 := by omega
  have hi : i = ix4 (⟨win0_0.index t (0 : Fin 3), by omega⟩ : Fin 4) h
      (⟨win0_0.index t (1 : Fin 3) * 512 + p.val, by omega⟩ : Fin 2048) d := by
    funext a
    apply Fin.ext
    match a with
    | ⟨0, _⟩ => show (i 0).val = win0_0.index t (0 : Fin 3); omega
    | ⟨1, _⟩ => show (i 1).val = h.val; omega
    | ⟨2, _⟩ => show (i 2).val = win0_0.index t (1 : Fin 3) * 512 + p.val; omega
    | ⟨3, _⟩ => show (i 3).val = d.val; omega
  rw [hi, hpay]
  exact block_part_apply V c t s h p d _ _ rfl rfl

/-- Every index of an output array is in the block of its batch and of the block of 512 rows its row falls in, for a
    block index that reaches every (batch, block of rows). -/
theorem covered_of_onto (index : Fin cfg0.N → Fin 4 → Nat)
    (honto : ∀ (b q : Fin 4), ∃ t : Fin cfg0.N, index t = ![b.val, 0, q.val, 0]) (i : S4x16x2048x64.Idx) :
    ∃ t : Fin cfg0.N, ∀ a : Fin 4, index t a * S1x16x512x64.size a ≤ (i a).val
      ∧ (i a).val < index t a * S1x16x512x64.size a + S1x16x512x64.size a := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := honto ⟨(i 0).val, h0⟩ ⟨(i 2).val / 512, by omega⟩
  have q0 : index t (0 : Fin 4) = (i 0).val := congrFun ht 0
  have q1 : index t (1 : Fin 4) = 0 := congrFun ht 1
  have q2 : index t (2 : Fin 4) = (i 2).val / 512 := congrFun ht 2
  have q3 : index t (3 : Fin 4) = 0 := congrFun ht 3
  refine ⟨t, fun a => ?_⟩
  match a with
  | ⟨0, _⟩ => show index t (0 : Fin 4) * 1 ≤ (i 0).val ∧ (i 0).val < index t (0 : Fin 4) * 1 + 1; omega
  | ⟨1, _⟩ => show index t (1 : Fin 4) * 16 ≤ (i 1).val ∧ (i 1).val < index t (1 : Fin 4) * 16 + 16; omega
  | ⟨2, _⟩ => show index t (2 : Fin 4) * 512 ≤ (i 2).val ∧ (i 2).val < index t (2 : Fin 4) * 512 + 512; omega
  | ⟨3, _⟩ => show index t (3 : Fin 4) * 64 ≤ (i 3).val ∧ (i 3).val < index t (3 : Fin 4) * 64 + 64; omega

/-! ### The queries -/

/-- The query window's block index against the input's, decided over the grid: same batch, same block of rows, all
    heads and all coordinates in one block. -/
theorem q_index_facts : ∀ t : Fin cfg0.N,
    win0_3.index t (0 : Fin 4) = win0_0.index t (0 : Fin 3) ∧ win0_3.index t (1 : Fin 4) = 0
    ∧ win0_3.index t (2 : Fin 4) = win0_0.index t (1 : Fin 3) ∧ win0_3.index t (3 : Fin 4) = 0 :=
  (by decide +kernel : ∀ t : Fin grid0.N, _)

/-- Every (batch, block of rows) is some grid point's. -/
theorem q_index_onto : ∀ (b q : Fin 4), ∃ t : Fin cfg0.N, win0_3.index t = ![b.val, 0, q.val, 0] :=
  (by decide +kernel : ∀ (b q : Fin 4), ∃ t : Fin grid0.N, win0_3.index t = ![b.val, 0, q.val, 0])

/-- What point `t` writes back to the query array is block `t` of the query part of the whole arrays' projection. -/
theorem flushed_q (c : Dev nD) (t : Fin cfg0.N) :
    (dat0 (F := Ideal) V c).flushed 3 t
      = ((cfg0.win 3).blk t).view.read (Elt Ideal) (Cert.Mha.part 0 (V c main_v0) (V c main_v1) (V c main_arg2)) := by
  -- what is written back is what the body left in the window's buffer
  show (cfg0.win 3).cut (grid0.coords t) ((dat0 V c).after 3 t) = _
  rw [after0_3]
  -- the body's one store fills the buffer with its payload, and its loads of whole buffers read the three blocks
  unfold out0_3
  rw [View.canon_unit_zero zeros4]
  simp only [View.ld_unit_zero (S := S1x512x1024) zeros3, View.ld_unit_zero (S := S1024x3072) zeros2,
    View.ld_unit_zero (S := S3072) zeros1]
  -- entry by entry: the entry of the band, and its place in the array
  funext j
  obtain ⟨u, h, p, d, rfl⟩ : ∃ (u : Fin 1) (h : Fin 16) (p : Fin 512) (d : Fin 64), j = ix4 u h p d :=
    ⟨j 0, j 1, j 2, j 3, eq_ix4 j⟩
  exact out_entry V c t 0 k0_pay2 queries_layout (win0_3.index t) (q_index_facts t) u h p d
    (((cfg0.win 3).blk t).view.emb (ix4 u h p d)) rfl rfl rfl rfl

/-- An index of the query array is in point `t`'s block iff each coordinate is in the block's range on its axis. -/
theorem mem_blk_q (t : Fin cfg0.N) (i : S4x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v3_0).slice (win0_3.rect t)).set ↔ _
  rw [View.set_slice_whole, Rect.mem_set_unit]
  exact Iff.rfl

/-- The 16 blocks cover the query array. -/
theorem cover_q (i : S4x16x2048x64.Idx) :
    ∃ t : Fin cfg0.N, (cfg0.win 3).flush t = true ∧ i ∈ ((cfg0.win 3).blk t).view.set := by
  obtain ⟨t, ht⟩ := covered_of_onto (fun t => win0_3.index t) q_index_onto i
  refine ⟨t, flush0_3 t, ?_⟩
  rw [mem_blk_q]
  exact ht

/-- THE QUERY ARRAY after the kernel: the query part of the projection of the input arrays as the kernel found them. -/
theorem arr_q (c : Dev nD) :
    (dat0 (F := Ideal) V c).arrAt 3 cfg0.N = Cert.Mha.part 0 (V c main_v0) (V c main_v1) (V c main_arg2) :=
  (dat0 V c).arrAt_eq_of_cover 3 _ (fun t _ => flushed_q V c t) cover_q

/-! ### The keys -/

/-- The key window's block index against the input's, decided over the grid: same batch, same block of rows, all
    heads and all coordinates in one block. -/
theorem k_index_facts : ∀ t : Fin cfg0.N,
    win0_4.index t (0 : Fin 4) = win0_0.index t (0 : Fin 3) ∧ win0_4.index t (1 : Fin 4) = 0
    ∧ win0_4.index t (2 : Fin 4) = win0_0.index t (1 : Fin 3) ∧ win0_4.index t (3 : Fin 4) = 0 :=
  (by decide +kernel : ∀ t : Fin grid0.N, _)

/-- Every (batch, block of rows) is some grid point's. -/
theorem k_index_onto : ∀ (b q : Fin 4), ∃ t : Fin cfg0.N, win0_4.index t = ![b.val, 0, q.val, 0] :=
  (by decide +kernel : ∀ (b q : Fin 4), ∃ t : Fin grid0.N, win0_4.index t = ![b.val, 0, q.val, 0])

/-- What point `t` writes back to the key array is block `t` of the key part of the whole arrays' projection. -/
theorem flushed_k (c : Dev nD) (t : Fin cfg0.N) :
    (dat0 (F := Ideal) V c).flushed 4 t
      = ((cfg0.win 4).blk t).view.read (Elt Ideal) (Cert.Mha.part 1 (V c main_v0) (V c main_v1) (V c main_arg2)) := by
  -- what is written back is what the body left in the window's buffer
  show (cfg0.win 4).cut (grid0.coords t) ((dat0 V c).after 4 t) = _
  rw [after0_4]
  -- the body's one store fills the buffer with its payload, and its loads of whole buffers read the three blocks
  unfold out0_4
  rw [View.canon_unit_zero zeros4]
  simp only [View.ld_unit_zero (S := S1x512x1024) zeros3, View.ld_unit_zero (S := S1024x3072) zeros2,
    View.ld_unit_zero (S := S3072) zeros1]
  -- entry by entry: the entry of the band, and its place in the array
  funext j
  obtain ⟨u, h, p, d, rfl⟩ : ∃ (u : Fin 1) (h : Fin 16) (p : Fin 512) (d : Fin 64), j = ix4 u h p d :=
    ⟨j 0, j 1, j 2, j 3, eq_ix4 j⟩
  exact out_entry V c t 1 k0_pay3 keys_layout (win0_4.index t) (k_index_facts t) u h p d
    (((cfg0.win 4).blk t).view.emb (ix4 u h p d)) rfl rfl rfl rfl

/-- An index of the key array is in point `t`'s block iff each coordinate is in the block's range on its axis. -/
theorem mem_blk_k (t : Fin cfg0.N) (i : S4x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v3_1).slice (win0_4.rect t)).set ↔ _
  rw [View.set_slice_whole, Rect.mem_set_unit]
  exact Iff.rfl

/-- The 16 blocks cover the key array. -/
theorem cover_k (i : S4x16x2048x64.Idx) :
    ∃ t : Fin cfg0.N, (cfg0.win 4).flush t = true ∧ i ∈ ((cfg0.win 4).blk t).view.set := by
  obtain ⟨t, ht⟩ := covered_of_onto (fun t => win0_4.index t) k_index_onto i
  refine ⟨t, flush0_4 t, ?_⟩
  rw [mem_blk_k]
  exact ht

/-- THE KEY ARRAY after the kernel: the key part of the projection of the input arrays as the kernel found them. -/
theorem arr_k (c : Dev nD) :
    (dat0 (F := Ideal) V c).arrAt 4 cfg0.N = Cert.Mha.part 1 (V c main_v0) (V c main_v1) (V c main_arg2) :=
  (dat0 V c).arrAt_eq_of_cover 4 _ (fun t _ => flushed_k V c t) cover_k

/-! ### The values -/

/-- The value window's block index against the input's, decided over the grid: same batch, same block of rows, all
    heads and all coordinates in one block. -/
theorem v_index_facts : ∀ t : Fin cfg0.N,
    win0_5.index t (0 : Fin 4) = win0_0.index t (0 : Fin 3) ∧ win0_5.index t (1 : Fin 4) = 0
    ∧ win0_5.index t (2 : Fin 4) = win0_0.index t (1 : Fin 3) ∧ win0_5.index t (3 : Fin 4) = 0 :=
  (by decide +kernel : ∀ t : Fin grid0.N, _)

/-- Every (batch, block of rows) is some grid point's. -/
theorem v_index_onto : ∀ (b q : Fin 4), ∃ t : Fin cfg0.N, win0_5.index t = ![b.val, 0, q.val, 0] :=
  (by decide +kernel : ∀ (b q : Fin 4), ∃ t : Fin grid0.N, win0_5.index t = ![b.val, 0, q.val, 0])

/-- What point `t` writes back to the value array is block `t` of the value part of the whole arrays' projection. -/
theorem flushed_v (c : Dev nD) (t : Fin cfg0.N) :
    (dat0 (F := Ideal) V c).flushed 5 t
      = ((cfg0.win 5).blk t).view.read (Elt Ideal) (Cert.Mha.part 2 (V c main_v0) (V c main_v1) (V c main_arg2)) := by
  -- what is written back is what the body left in the window's buffer
  show (cfg0.win 5).cut (grid0.coords t) ((dat0 V c).after 5 t) = _
  rw [after0_5]
  -- the body's one store fills the buffer with its payload, and its loads of whole buffers read the three blocks
  unfold out0_5
  rw [View.canon_unit_zero zeros4]
  simp only [View.ld_unit_zero (S := S1x512x1024) zeros3, View.ld_unit_zero (S := S1024x3072) zeros2,
    View.ld_unit_zero (S := S3072) zeros1]
  -- entry by entry: the entry of the band, and its place in the array
  funext j
  obtain ⟨u, h, p, d, rfl⟩ : ∃ (u : Fin 1) (h : Fin 16) (p : Fin 512) (d : Fin 64), j = ix4 u h p d :=
    ⟨j 0, j 1, j 2, j 3, eq_ix4 j⟩
  exact out_entry V c t 2 k0_pay4 values_layout (win0_5.index t) (v_index_facts t) u h p d
    (((cfg0.win 5).blk t).view.emb (ix4 u h p d)) rfl rfl rfl rfl

/-- An index of the value array is in point `t`'s block iff each coordinate is in the block's range on its axis. -/
theorem mem_blk_v (t : Fin cfg0.N) (i : S4x16x2048x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v3_2).slice (win0_5.rect t)).set ↔ _
  rw [View.set_slice_whole, Rect.mem_set_unit]
  exact Iff.rfl

/-- The 16 blocks cover the value array. -/
theorem cover_v (i : S4x16x2048x64.Idx) :
    ∃ t : Fin cfg0.N, (cfg0.win 5).flush t = true ∧ i ∈ ((cfg0.win 5).blk t).view.set := by
  obtain ⟨t, ht⟩ := covered_of_onto (fun t => win0_5.index t) v_index_onto i
  refine ⟨t, flush0_5 t, ?_⟩
  rw [mem_blk_v]
  exact ht

/-- THE VALUE ARRAY after the kernel: the value part of the projection of the input arrays as the kernel found them. -/
theorem arr_v (c : Dev nD) :
    (dat0 (F := Ideal) V c).arrAt 5 cfg0.N = Cert.Mha.part 2 (V c main_v0) (V c main_v1) (V c main_arg2) :=
  (dat0 V c).arrAt_eq_of_cover 5 _ (fun t _ => flushed_v V c t) cover_v

end Cert.Mha.Region0

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.Head.lean ====
/-
  One head of the attention call, read at an entry.

  Inside a grid point the call holds the query block `[16, 512, 64]`, the key and value blocks `[16, 2048, 64]` and the
  output weight `[1024, 1024]`. Head `h` uses slice `h` of each stack and the 64 rows `64 h … 64 h + 63` of the weight:
  scores = queries · keysᵀ times the scale, their softmax along the keys (row maximum and row sum kept as columns and
  spread back), times the values, times the weight rows. At `(p, e)` that is
  `∑ d < 64, attend (query row p) keys values d · weight (64 h + d, e)`.
-/
import proofs.«127099_j90941637525735_2_alg».proof.Proof.Gen.KernelIdeal.Skeleton
import proofs.«127099_j90941637525735_2_alg».proof.Proof.Spec
import proofs.«127099_j90941637525735_2_alg».proof.Proof.LibIndexReads
import proofs.«127099_j90941637525735_2_alg».proof.Proof.LibBlockAcc
import Idealize.ShloMosaic.Lib.ValueLayout
import Idealize.ShloMosaic.Lib.Pipeline.Value

noncomputable section

open scoped BigOperators

namespace Cert.Mha.Head

open Cert.KernelIdeal Cert.KernelIdeal.Gen
open Idealize.ShloMosaic Idealize.ShloMosaic.ValueIdx Cert.RowSoftmax Cert.Mha

/-! ## Slices -/

/-- Slice `h` of a stack `[16, A, B]`, viewed as a matrix `[A, B]`, reads at `(p, d)` the stack at `(h, p, d)`. -/
theorem stackSlice_apply {α : Type} {A B : ℕ} (h : ℕ) (x : (⟨3, ![16, A, B]⟩ : Shape).Idx → α)
    (hs : (⟨3, ![16, A, B]⟩ : Shape).Slices ![h, 0, 0] ⟨3, ![1, A, B]⟩)
    (hc : (⟨3, ![1, A, B]⟩ : Shape).ShapeCasts ⟨2, ![A, B]⟩) (hh : Fin 16) (e : hh.val = h) (p : Fin A) (d : Fin B) :
    shapeCast ⟨2, ![A, B]⟩ (extractStridedSlice ⟨3, ![1, A, B]⟩ ![h, 0, 0] x hs) hc (ix2 p d) = x (ix3 hh p d) :=
  (shapeCast_1ab_ab_apply _ hc p d).trans
    (extractStridedSlice_apply _ x hs _ (ix3 hh p d) fun ax => by
      match ax with
      | ⟨0, _⟩ => show hh.val = h + 0; omega
      | ⟨1, _⟩ => exact (Nat.zero_add _).symm
      | ⟨2, _⟩ => exact (Nat.zero_add _).symm)

/-! ## The head term, stage by stage -/

/-- The scaled scores of a query block against a key block: queries · keysᵀ into a zero accumulator, times the scale. -/
def scoresT (qh : FVec Ideal S512x64 .bf16) (kh : FVec Ideal S2048x64 .bf16) : FVec Ideal S512x2048 .f32 :=
  mulf (matmul dot_S512x64_S2048x64_S512x2048_1_1_0_0_n_n none qh kh (constant S512x2048 .f32 0x00000000#32))
    (broadcast S512x2048 (Scalar.ofBits .f32 0x3E000000#32))

/-- The softmax along the rows as the call spells it: the row maximum (a column, spread back) subtracted, the
    exponential, divided by the row sum (a column, spread back). -/
def weightsT (s : FVec Ideal S512x2048 .f32) : FVec Ideal S512x2048 .f32 :=
  divf (exp (subf s (broadcastTo S512x2048 (shapeCast S512x1
        (multiReduction .maximumf [1] S512 s 0xFF800000#32 reduces_S512x2048_S512 (.inl rfl) rfl) shapeCasts_S512_S512x1)
        broadcasts_S512x1_S512x2048)))
    (broadcastTo S512x2048 (shapeCast S512x1
      (multiReduction .add [1] S512
        (exp (subf s (broadcastTo S512x2048 (shapeCast S512x1
          (multiReduction .maximumf [1] S512 s 0xFF800000#32 reduces_S512x2048_S512 (.inl rfl) rfl) shapeCasts_S512_S512x1)
          broadcasts_S512x1_S512x2048)))
        0x00000000#32 reduces_S512x2048_S512 (.inl rfl) rfl) shapeCasts_S512_S512x1)
      broadcasts_S512x1_S512x2048)

/-- The weights times the value block, into a zero accumulator. -/
def attT (qh : FVec Ideal S512x64 .bf16) (kh vh : FVec Ideal S2048x64 .bf16) : FVec Ideal S512x64 .f32 :=
  matmul dot_S512x2048_S2048x64_S512x64_1_0_0_1_n_n none (truncf .bf16 (weightsT (scoresT qh kh)) bitsLt_bf16_f32) vh
    (constant S512x64 .f32 0x00000000#32)

/-- The head's output times its 64 rows of the output weight, into a zero accumulator. -/
def headTerm (qh : FVec Ideal S512x64 .bf16) (kh vh : FVec Ideal S2048x64 .bf16) (wh : FVec Ideal S64x1024 .bf16) :
    FVec Ideal S512x1024 .f32 :=
  matmul dot_S512x64_S64x1024_S512x1024_1_0_0_1_n_n none (truncf .bf16 (attT qh kh vh) bitsLt_bf16_f32) wh
    (constant S512x1024 .f32 0x00000000#32)

/-- The scaled score of query row `p` against key row `j`. -/
theorem scores_apply (qh : FVec Ideal S512x64 .bf16) (kh : FVec Ideal S2048x64 .bf16) (p : Fin 512) (j : Fin 2048) :
    scoresT qh kh (ix2 p j) = (∑ d : Fin 64, qh (ix2 p d) * kh (ix2 j d)) * scale :=
  congrArg (· * scale) (Cert.Lib.IndexReads.matmul_nt_apply dot_S512x64_S2048x64_S512x2048_1_1_0_0_n_n_wf none qh kh p j)

/-- The weight of key `j` for query row `p`: the shifted softmax of that row of scores. -/
theorem weights_apply (s : FVec Ideal S512x2048 .f32) (p : Fin 512) (j : Fin 2048) :
    weightsT s (ix2 p j) = softmax negInf (fun k => s (ix2 p k)) j :=
  softmax_block_apply s 0xFF800000#32 0x00000000#32 reduces_S512x2048_S512 (.inl rfl) rfl rfl
    shapeCasts_S512_S512x1 broadcasts_S512x1_S512x2048 p j

/-- Coordinate `d` of what query row `p` attends to. -/
theorem att_apply (qh : FVec Ideal S512x64 .bf16) (kh vh : FVec Ideal S2048x64 .bf16) (p : Fin 512) (d : Fin 64) :
    attT qh kh vh (ix2 p d)
      = attend (fun d' => qh (ix2 p d')) (fun j d' => kh (ix2 j d')) (fun j d' => vh (ix2 j d')) d :=
  ((Ideal.matmul_constant_zero_apply dot_S512x2048_S2048x64_S512x64_1_0_0_1_n_n none
      (truncf .bf16 (weightsT (scoresT qh kh)) bitsLt_bf16_f32) vh (ix2 p d)).trans
    (Cert.PlainDot.sum_contr dot_S512x2048_S2048x64_S512x64_1_0_0_1_n_n ⟨rfl, rfl, rfl, rfl, rfl, rfl⟩
      (truncf .bf16 (weightsT (scoresT qh kh)) bitsLt_bf16_f32) vh p d)).trans
    (Finset.sum_congr rfl fun j _ => congrArg (· * vh (ix2 j d))
      ((weights_apply (scoresT qh kh) p j).trans
        (congrArg (fun y => softmax negInf y j) (funext fun j' => scores_apply qh kh p j'))))

/-- THE HEAD TERM AT `(p, e)`: the attended value coordinates of query row `p`, against the weight rows. -/
theorem head_apply (qh : FVec Ideal S512x64 .bf16) (kh vh : FVec Ideal S2048x64 .bf16) (wh : FVec Ideal S64x1024 .bf16)
    (p : Fin 512) (e : Fin 1024) :
    headTerm qh kh vh wh (ix2 p e)
      = ∑ d : Fin 64, attend (fun d' => qh (ix2 p d')) (fun j d' => kh (ix2 j d')) (fun j d' => vh (ix2 j d')) d
          * wh (ix2 d e) :=
  ((Ideal.matmul_constant_zero_apply dot_S512x64_S64x1024_S512x1024_1_0_0_1_n_n none
      (truncf .bf16 (attT qh kh vh) bitsLt_bf16_f32) wh (ix2 p e)).trans
    (Cert.PlainDot.sum_contr dot_S512x64_S64x1024_S512x1024_1_0_0_1_n_n ⟨rfl, rfl, rfl, rfl, rfl, rfl⟩
      (truncf .bf16 (attT qh kh vh) bitsLt_bf16_f32) wh p e)).trans
    (Finset.sum_congr rfl fun d _ => congrArg (· * wh (ix2 d e)) (att_apply qh kh vh p d))

/-! ## The call's chained payloads as sums of head terms

The body's arithmetic is printed in nine pieces; each adds one or two head terms onto the running sum it is
handed, the first onto the zero splat, the last also adds the bias row and gives the block its leading unit axis. -/

/-- The pieces before the heads only drop the leading unit axis of each stack (and recast the weight to its own shape). -/
theorem first_eq (v0 : Vec Ideal S1x16x512x64 .bf16) (v2 v4 : Vec Ideal S1x16x2048x64 .bf16) (v6 : Vec Ideal S1024x1024 .bf16) :
    k1_pay6 v0 v2 v4 v6 = addf (broadcast S512x1024 (Scalar.ofBits .f32 0x00000000#32))
      (headTerm (shapeCast S512x64 (extractStridedSlice S1x512x64 ![0, 0, 0] (k1_pay2 v0) slices_S16x512x64_o0_0_0_S1x512x64) shapeCasts_S1x512x64_S512x64) (shapeCast S2048x64 (extractStridedSlice S1x2048x64 ![0, 0, 0] (k1_pay3 v2) slices_S16x2048x64_o0_0_0_S1x2048x64) shapeCasts_S1x2048x64_S2048x64)
        (shapeCast S2048x64 (extractStridedSlice S1x2048x64 ![0, 0, 0] (k1_pay4 v4) slices_S16x2048x64_o0_0_0_S1x2048x64) shapeCasts_S1x2048x64_S2048x64) (extractStridedSlice S64x1024 ![0, 0] (k1_pay5 v6) slices_S1024x1024_o0_0_S64x1024)) := rfl

/-- The query slice of head 1, handed on by the first piece. -/
theorem q1_eq (v0 : Vec Ideal S1x16x512x64 .bf16) : k1_pay7 v0 = (shapeCast S512x64 (extractStridedSlice S1x512x64 ![1, 0, 0] (k1_pay2 v0) slices_S16x512x64_o1_0_0_S1x512x64) shapeCasts_S1x512x64_S512x64) := rfl
/-- The key slice of head 1. -/
theorem k1_eq (v2 : Vec Ideal S1x16x2048x64 .bf16) : k1_pay8 v2 = (shapeCast S2048x64 (extractStridedSlice S1x2048x64 ![1, 0, 0] (k1_pay3 v2) slices_S16x2048x64_o1_0_0_S1x2048x64) shapeCasts_S1x2048x64_S2048x64) := rfl
/-- The query slice of head 3. -/
theorem q3_eq (v1 : FVec Ideal S16x512x64 .bf16) : k1_pay10 v1 = (shapeCast S512x64 (extractStridedSlice S1x512x64 ![3, 0, 0] v1 slices_S16x512x64_o3_0_0_S1x512x64) shapeCasts_S1x512x64_S512x64) := rfl
/-- The key slice of head 3. -/
theorem k3_eq (v3 : FVec Ideal S16x2048x64 .bf16) : k1_pay11 v3 = (shapeCast S2048x64 (extractStridedSlice S1x2048x64 ![3, 0, 0] v3 slices_S16x2048x64_o3_0_0_S1x2048x64) shapeCasts_S1x2048x64_S2048x64) := rfl
/-- The query slice of head 5. -/
theorem q5_eq (v1 : FVec Ideal S16x512x64 .bf16) : k1_pay13 v1 = (shapeCast S512x64 (extractStridedSlice S1x512x64 ![5, 0, 0] v1 slices_S16x512x64_o5_0_0_S1x512x64) shapeCasts_S1x512x64_S512x64) := rfl
/-- The key slice of head 5. -/
theorem k5_eq (v3 : FVec Ideal S16x2048x64 .bf16) : k1_pay14 v3 = (shapeCast S2048x64 (extractStridedSlice S1x2048x64 ![5, 0, 0] v3 slices_S16x2048x64_o5_0_0_S1x2048x64) shapeCasts_S1x2048x64_S2048x64) := rfl
/-- The query slice of head 7. -/
theorem q7_eq (v1 : FVec Ideal S16x512x64 .bf16) : k1_pay16 v1 = (shapeCast S512x64 (extractStridedSlice S1x512x64 ![7, 0, 0] v1 slices_S16x512x64_o7_0_0_S1x512x64) shapeCasts_S1x512x64_S512x64) := rfl
/-- The key slice of head 7. -/
theorem k7_eq (v3 : FVec Ideal S16x2048x64 .bf16) : k1_pay17 v3 = (shapeCast S2048x64 (extractStridedSlice S1x2048x64 ![7, 0, 0] v3 slices_S16x2048x64_o7_0_0_S1x2048x64) shapeCasts_S1x2048x64_S2048x64) := rfl
/-- The query slice of head 9. -/
theorem q9_eq (v1 : FVec Ideal S16x512x64 .bf16) : k1_pay19 v1 = (shapeCast S512x64 (extractStridedSlice S1x512x64 ![9, 0, 0] v1 slices_S16x512x64_o9_0_0_S1x512x64) shapeCasts_S1x512x64_S512x64) := rfl
/-- The key slice of head 9. -/
theorem k9_eq (v3 : FVec Ideal S16x2048x64 .bf16) : k1_pay20 v3 = (shapeCast S2048x64 (extractStridedSlice S1x2048x64 ![9, 0, 0] v3 slices_S16x2048x64_o9_0_0_S1x2048x64) shapeCasts_S1x2048x64_S2048x64) := rfl
/-- The query slice of head 11. -/
theorem q11_eq (v1 : FVec Ideal S16x512x64 .bf16) : k1_pay22 v1 = (shapeCast S512x64 (extractStridedSlice S1x512x64 ![11, 0, 0] v1 slices_S16x512x64_o11_0_0_S1x512x64) shapeCasts_S1x512x64_S512x64) := rfl
/-- The key slice of head 11. -/
theorem k11_eq (v3 : FVec Ideal S16x2048x64 .bf16) : k1_pay23 v3 = (shapeCast S2048x64 (extractStridedSlice S1x2048x64 ![11, 0, 0] v3 slices_S16x2048x64_o11_0_0_S1x2048x64) shapeCasts_S1x2048x64_S2048x64) := rfl
/-- The query slice of head 13. -/
theorem q13_eq (v1 : FVec Ideal S16x512x64 .bf16) : k1_pay25 v1 = (shapeCast S512x64 (extractStridedSlice S1x512x64 ![13, 0, 0] v1 slices_S16x512x64_o13_0_0_S1x512x64) shapeCasts_S1x512x64_S512x64) := rfl
/-- The key slice of head 13. -/
theorem k13_eq (v3 : FVec Ideal S16x2048x64 .bf16) : k1_pay26 v3 = (shapeCast S2048x64 (extractStridedSlice S1x2048x64 ![13, 0, 0] v3 slices_S16x2048x64_o13_0_0_S1x2048x64) shapeCasts_S1x2048x64_S2048x64) := rfl
/-- The query slice of head 15. -/
theorem q15_eq (v1 : FVec Ideal S16x512x64 .bf16) : k1_pay28 v1 = (shapeCast S512x64 (extractStridedSlice S1x512x64 ![15, 0, 0] v1 slices_S16x512x64_o15_0_0_S1x512x64) shapeCasts_S1x512x64_S512x64) := rfl
/-- The key slice of head 15. -/
theorem k15_eq (v3 : FVec Ideal S16x2048x64 .bf16) : k1_pay29 v3 = (shapeCast S2048x64 (extractStridedSlice S1x2048x64 ![15, 0, 0] v3 slices_S16x2048x64_o15_0_0_S1x2048x64) shapeCasts_S1x2048x64_S2048x64) := rfl
/-- Heads 1 and 2 added onto the running sum. -/
theorem pair1_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay9 v1 v3 v5 v7 acc q k
      = addf (addf acc (headTerm q k (shapeCast S2048x64 (extractStridedSlice S1x2048x64 ![1, 0, 0] v5 slices_S16x2048x64_o1_0_0_S1x2048x64) shapeCasts_S1x2048x64_S2048x64) (extractStridedSlice S64x1024 ![64, 0] v7 slices_S1024x1024_o64_0_S64x1024)))
          (headTerm (shapeCast S512x64 (extractStridedSlice S1x512x64 ![2, 0, 0] v1 slices_S16x512x64_o2_0_0_S1x512x64) shapeCasts_S1x512x64_S512x64) (shapeCast S2048x64 (extractStridedSlice S1x2048x64 ![2, 0, 0] v3 slices_S16x2048x64_o2_0_0_S1x2048x64) shapeCasts_S1x2048x64_S2048x64)
            (shapeCast S2048x64 (extractStridedSlice S1x2048x64 ![2, 0, 0] v5 slices_S16x2048x64_o2_0_0_S1x2048x64) shapeCasts_S1x2048x64_S2048x64) (extractStridedSlice S64x1024 ![128, 0] v7 slices_S1024x1024_o128_0_S64x1024)) := rfl
/-- Heads 3 and 4 added onto the running sum. -/
theorem pair3_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay12 v1 v3 v5 v7 acc q k
      = addf (addf acc (headTerm q k (shapeCast S2048x64 (extractStridedSlice S1x2048x64 ![3, 0, 0] v5 slices_S16x2048x64_o3_0_0_S1x2048x64) shapeCasts_S1x2048x64_S2048x64) (extractStridedSlice S64x1024 ![192, 0] v7 slices_S1024x1024_o192_0_S64x1024)))
          (headTerm (shapeCast S512x64 (extractStridedSlice S1x512x64 ![4, 0, 0] v1 slices_S16x512x64_o4_0_0_S1x512x64) shapeCasts_S1x512x64_S512x64) (shapeCast S2048x64 (extractStridedSlice S1x2048x64 ![4, 0, 0] v3 slices_S16x2048x64_o4_0_0_S1x2048x64) shapeCasts_S1x2048x64_S2048x64)
            (shapeCast S2048x64 (extractStridedSlice S1x2048x64 ![4, 0, 0] v5 slices_S16x2048x64_o4_0_0_S1x2048x64) shapeCasts_S1x2048x64_S2048x64) (extractStridedSlice S64x1024 ![256, 0] v7 slices_S1024x1024_o256_0_S64x1024)) := rfl
/-- Heads 5 and 6 added onto the running sum. -/
theorem pair5_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay15 v1 v3 v5 v7 acc q k
      = addf (addf acc (headTerm q k (shapeCast S2048x64 (extractStridedSlice S1x2048x64 ![5, 0, 0] v5 slices_S16x2048x64_o5_0_0_S1x2048x64) shapeCasts_S1x2048x64_S2048x64) (extractStridedSlice S64x1024 ![320, 0] v7 slices_S1024x1024_o320_0_S64x1024)))
          (headTerm (shapeCast S512x64 (extractStridedSlice S1x512x64 ![6, 0, 0] v1 slices_S16x512x64_o6_0_0_S1x512x64) shapeCasts_S1x512x64_S512x64) (shapeCast S2048x64 (extractStridedSlice S1x2048x64 ![6, 0, 0] v3 slices_S16x2048x64_o6_0_0_S1x2048x64) shapeCasts_S1x2048x64_S2048x64)
            (shapeCast S2048x64 (extractStridedSlice S1x2048x64 ![6, 0, 0] v5 slices_S16x2048x64_o6_0_0_S1x2048x64) shapeCasts_S1x2048x64_S2048x64) (extractStridedSlice S64x1024 ![384, 0] v7 slices_S1024x1024_o384_0_S64x1024)) := rfl
/-- Heads 7 and 8 added onto the running sum. -/
theorem pair7_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay18 v1 v3 v5 v7 acc q k
      = addf (addf acc (headTerm q k (shapeCast S2048x64 (extractStridedSlice S1x2048x64 ![7, 0, 0] v5 slices_S16x2048x64_o7_0_0_S1x2048x64) shapeCasts_S1x2048x64_S2048x64) (extractStridedSlice S64x1024 ![448, 0] v7 slices_S1024x1024_o448_0_S64x1024)))
          (headTerm (shapeCast S512x64 (extractStridedSlice S1x512x64 ![8, 0, 0] v1 slices_S16x512x64_o8_0_0_S1x512x64) shapeCasts_S1x512x64_S512x64) (shapeCast S2048x64 (extractStridedSlice S1x2048x64 ![8, 0, 0] v3 slices_S16x2048x64_o8_0_0_S1x2048x64) shapeCasts_S1x2048x64_S2048x64)
            (shapeCast S2048x64 (extractStridedSlice S1x2048x64 ![8, 0, 0] v5 slices_S16x2048x64_o8_0_0_S1x2048x64) shapeCasts_S1x2048x64_S2048x64) (extractStridedSlice S64x1024 ![512, 0] v7 slices_S1024x1024_o512_0_S64x1024)) := rfl
/-- Heads 9 and 10 added onto the running sum. -/
theorem pair9_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay21 v1 v3 v5 v7 acc q k
      = addf (addf acc (headTerm q k (shapeCast S2048x64 (extractStridedSlice S1x2048x64 ![9, 0, 0] v5 slices_S16x2048x64_o9_0_0_S1x2048x64) shapeCasts_S1x2048x64_S2048x64) (extractStridedSlice S64x1024 ![576, 0] v7 slices_S1024x1024_o576_0_S64x1024)))
          (headTerm (shapeCast S512x64 (extractStridedSlice S1x512x64 ![10, 0, 0] v1 slices_S16x512x64_o10_0_0_S1x512x64) shapeCasts_S1x512x64_S512x64) (shapeCast S2048x64 (extractStridedSlice S1x2048x64 ![10, 0, 0] v3 slices_S16x2048x64_o10_0_0_S1x2048x64) shapeCasts_S1x2048x64_S2048x64)
            (shapeCast S2048x64 (extractStridedSlice S1x2048x64 ![10, 0, 0] v5 slices_S16x2048x64_o10_0_0_S1x2048x64) shapeCasts_S1x2048x64_S2048x64) (extractStridedSlice S64x1024 ![640, 0] v7 slices_S1024x1024_o640_0_S64x1024)) := rfl
/-- Heads 11 and 12 added onto the running sum. -/
theorem pair11_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay24 v1 v3 v5 v7 acc q k
      = addf (addf acc (headTerm q k (shapeCast S2048x64 (extractStridedSlice S1x2048x64 ![11, 0, 0] v5 slices_S16x2048x64_o11_0_0_S1x2048x64) shapeCasts_S1x2048x64_S2048x64) (extractStridedSlice S64x1024 ![704, 0] v7 slices_S1024x1024_o704_0_S64x1024)))
          (headTerm (shapeCast S512x64 (extractStridedSlice S1x512x64 ![12, 0, 0] v1 slices_S16x512x64_o12_0_0_S1x512x64) shapeCasts_S1x512x64_S512x64) (shapeCast S2048x64 (extractStridedSlice S1x2048x64 ![12, 0, 0] v3 slices_S16x2048x64_o12_0_0_S1x2048x64) shapeCasts_S1x2048x64_S2048x64)
            (shapeCast S2048x64 (extractStridedSlice S1x2048x64 ![12, 0, 0] v5 slices_S16x2048x64_o12_0_0_S1x2048x64) shapeCasts_S1x2048x64_S2048x64) (extractStridedSlice S64x1024 ![768, 0] v7 slices_S1024x1024_o768_0_S64x1024)) := rfl
/-- Heads 13 and 14 added onto the running sum. -/
theorem pair13_eq (v1 : FVec Ideal S16x512x64 .bf16) (v3 v5 : FVec Ideal S16x2048x64 .bf16) (v7 : FVec Ideal S1024x1024 .bf16)
    (acc : FVec Ideal S512x1024 .f32) (q : FVec Ideal S512x64 .bf16) (k : FVec Ideal S2048x64 .bf16) :
    k1_pay27 v1 v3 v5 v7 acc q k
      = addf (addf acc (headTerm q k (shapeCast S2048x64 (extractStridedSlice S1x2048x64 ![13, 0, 0] v5 slices_S16x2048x64_o13_0_0_S1x2048x64) shapeCasts_S1x2048x64_S2048x64) (extractStridedSlice S64x1024 ![832, 0] v7 slices_S1024x1024_o832_0_S64x1024)))
          (headTerm (shapeCast S512x64 (extractStridedSlice S1x512x64 ![14, 0, 0] v1 slices_S16x512x64_o14_0_0_S1x512x64) shapeCasts_S1x512x64_S512x64) (shapeCast S2048x64 (extractStridedSlice S1x2048x64 ![14, 0, 0] v3 slices_S16x2048x64_o14_0_0_S1x2048x64) shapeCasts_S1x2048x64_S2048x64)
            (shapeCast S2048x64 (extractStridedSlice S1x2048x64 ![14, 0, 0] v5 slices_S16x2048x64_o14_0_0_S1x2048x64) shapeCasts_S1x2048x64_S2048x64) (extractStridedSlice S64x1024 ![896, 0] v7 slices_S1024x1024_o896_0_S64x1024)) := rfl
/-- Head 15 and the bias row added, the block given its leading unit axis. -/
theorem last_eq (v5 : FVec Ideal S16x2048x64 .bf16) (v7 : FVec Ideal S1024x1024 .bf16) (acc : FVec Ideal S512x1024 .f32)
    (q : FVec Ideal S512x64 .bf16) (k : FVec Ideal S2048x64 .bf16) (bias : Vec Ideal S1024 .f32) :
    k1_pay1 v5 v7 acc q k bias
      = shapeCast S1x512x1024 (addf (addf acc (headTerm q k (shapeCast S2048x64 (extractStridedSlice S1x2048x64 ![15, 0, 0] v5 slices_S16x2048x64_o15_0_0_S1x2048x64) shapeCasts_S1x2048x64_S2048x64) (extractStridedSlice S64x1024 ![960, 0] v7 slices_S1024x1024_o960_0_S64x1024)))
          (broadcastTo S512x1024 (shapeCast S1x1024 bias shapeCasts_S1024_S1x1024) broadcasts_S1x1024_S512x1024))
          shapeCasts_S512x1024_S1x512x1024 := rfl

/-! ## The block's result at an entry

`x0` is the query block `[1, 16, 512, 64]`, `x1` and `x2` the key and value blocks `[1, 16, 2048, 64]`, `x3` the output
weight and `x4` the output bias, as a grid point loads them. -/

section Block

variable (x0 : Vec Ideal S1x16x512x64 .bf16) (x1 x2 : Vec Ideal S1x16x2048x64 .bf16) (x3 : Vec Ideal S1024x1024 .bf16)
  (x4 : Vec Ideal S1024 .f32)

/-- Coordinate `d` of head `h`'s output for the block's query row `p`. -/
def hd (p : Fin 512) (h : Fin 16) (d : Fin 64) : EReal :=
  attend (fun d' => x0 (ix4 (0 : Fin 1) h p d')) (fun j d' => x1 (ix4 (0 : Fin 1) h j d')) (fun j d' => x2 (ix4 (0 : Fin 1) h j d')) d

theorem hd_congr (p : Fin 512) {h₁ h₂ : Fin 16} {d₁ d₂ : Fin 64} (eh : h₁ = h₂) (ed : d₁ = d₂) :
    hd x0 x1 x2 p h₁ d₁ = hd x0 x1 x2 p h₂ d₂ := by subst eh ed; rfl

/-- Term `k` of the output contraction at `(p, e)`: column `k` of the heads laid side by side is coordinate `k % 64`
    of head `k / 64`; it meets row `k` of the weight. -/
def term (p : Fin 512) (e : Fin 1024) (k : Fin 1024) : EReal :=
  hd x0 x1 x2 p ⟨k.val / 64, by have := k.isLt; omega⟩ ⟨k.val % 64, by omega⟩ * x3 (ix2 k e)

/-- The same terms as a sequence over the naturals (zero past the last). -/
def seq (p : Fin 512) (e : Fin 1024) (n : ℕ) : EReal := if hn : n < 1024 then term x0 x1 x2 x3 p e ⟨n, hn⟩ else 0

/-- Head `h` times its weight rows, the slices spelled as the call spells them (offset `o = 64 h`). -/
def headOf (h o : ℕ) (hq : S16x512x64.Slices ![h, 0, 0] S1x512x64) (hk : S16x2048x64.Slices ![h, 0, 0] S1x2048x64)
    (hw : S1024x1024.Slices ![o, 0] S64x1024) : FVec Ideal S512x1024 .f32 :=
  headTerm (shapeCast S512x64 (extractStridedSlice S1x512x64 ![h, 0, 0] (k1_pay2 x0) hq) shapeCasts_S1x512x64_S512x64)
    (shapeCast S2048x64 (extractStridedSlice S1x2048x64 ![h, 0, 0] (k1_pay3 x1) hk) shapeCasts_S1x2048x64_S2048x64)
    (shapeCast S2048x64 (extractStridedSlice S1x2048x64 ![h, 0, 0] (k1_pay4 x2) hk) shapeCasts_S1x2048x64_S2048x64)
    (extractStridedSlice S64x1024 ![o, 0] (k1_pay5 x3) hw)

/-- Head `h`'s term at `(p, e)` is the 64 consecutive terms `64 h … 64 h + 63` of the contraction. -/
theorem headOf_apply (h o : ℕ) (hh : Fin 16) (eh : hh.val = h) (eo : o = 64 * h)
    (hq : S16x512x64.Slices ![h, 0, 0] S1x512x64) (hk : S16x2048x64.Slices ![h, 0, 0] S1x2048x64)
    (hw : S1024x1024.Slices ![o, 0] S64x1024) (p : Fin 512) (e : Fin 1024) :
    headOf x0 x1 x2 x3 h o hq hk hw (ix2 p e) = ∑ s : Fin 64, seq x0 x1 x2 x3 p e (64 * h + s.val) := by
  unfold headOf
  refine (head_apply _ _ _ _ p e).trans (Finset.sum_congr rfl fun d _ => ?_)
  have hd64 : d.val < 64 := d.isLt
  have hh16 : hh.val < 16 := hh.isLt
  have hn : 64 * h + d.val < 1024 := by omega
  unfold seq
  rw [dif_pos hn]
  unfold term
  -- the slices read through to the blocks
  have eq : (fun d' => shapeCast S512x64 (extractStridedSlice S1x512x64 ![h, 0, 0] (k1_pay2 x0) hq) shapeCasts_S1x512x64_S512x64 (ix2 p d'))
      = fun d' => x0 (ix4 (0 : Fin 1) hh p d') := funext fun d' =>
    (stackSlice_apply h (k1_pay2 x0) hq shapeCasts_S1x512x64_S512x64 hh eh p d').trans
      (shapeCast_1abc_abc_apply x0 shapeCasts_S1x16x512x64_S16x512x64 hh p d')
  have ek : (fun j d' => shapeCast S2048x64 (extractStridedSlice S1x2048x64 ![h, 0, 0] (k1_pay3 x1) hk) shapeCasts_S1x2048x64_S2048x64 (ix2 j d'))
      = fun j d' => x1 (ix4 (0 : Fin 1) hh j d') := funext fun j => funext fun d' =>
    (stackSlice_apply h (k1_pay3 x1) hk shapeCasts_S1x2048x64_S2048x64 hh eh j d').trans
      (shapeCast_1abc_abc_apply x1 shapeCasts_S1x16x2048x64_S16x2048x64 hh j d')
  have ev : (fun j d' => shapeCast S2048x64 (extractStridedSlice S1x2048x64 ![h, 0, 0] (k1_pay4 x2) hk) shapeCasts_S1x2048x64_S2048x64 (ix2 j d'))
      = fun j d' => x2 (ix4 (0 : Fin 1) hh j d') := funext fun j => funext fun d' =>
    (stackSlice_apply h (k1_pay4 x2) hk shapeCasts_S1x2048x64_S2048x64 hh eh j d').trans
      (shapeCast_1abc_abc_apply x2 shapeCasts_S1x16x2048x64_S16x2048x64 hh j d')
  have ew : extractStridedSlice S64x1024 ![o, 0] (k1_pay5 x3) hw (ix2 d e) = x3 (ix2 (⟨64 * h + d.val, hn⟩ : Fin 1024) e) :=
    (slice2_axis0_apply o (k1_pay5 x3) hw d e ⟨64 * h + d.val, hn⟩ (by show 64 * h + d.val = o + d.val; omega)).trans
      (congrFun (shapeCast_self x3 shapeCasts_S1024x1024_S1024x1024) _)
  rw [eq, ek, ev, ew]
  exact congrArg (· * x3 (ix2 (⟨64 * h + d.val, hn⟩ : Fin 1024) e))
    (hd_congr x0 x1 x2 p (Fin.ext (by show hh.val = (64 * h + d.val) / 64; omega))
      (Fin.ext (by show d.val = (64 * h + d.val) % 64; omega)))

/-- The block's result as the call computes it: the sixteen head terms added one after the other onto the zero
    splat, then the bias row, then the leading unit axis. -/
def blockOut : FVec Ideal S1x512x1024 .f32 :=
  shapeCast S1x512x1024 (addf
    (addf (addf (addf (addf (addf (addf (addf (addf (addf (addf (addf (addf (addf (addf (addf (addf (broadcast S512x1024 (Scalar.ofBits .f32 0x00000000#32))
      (headOf x0 x1 x2 x3 0 0 slices_S16x512x64_o0_0_0_S1x512x64 slices_S16x2048x64_o0_0_0_S1x2048x64 slices_S1024x1024_o0_0_S64x1024))
      (headOf x0 x1 x2 x3 1 64 slices_S16x512x64_o1_0_0_S1x512x64 slices_S16x2048x64_o1_0_0_S1x2048x64 slices_S1024x1024_o64_0_S64x1024))
      (headOf x0 x1 x2 x3 2 128 slices_S16x512x64_o2_0_0_S1x512x64 slices_S16x2048x64_o2_0_0_S1x2048x64 slices_S1024x1024_o128_0_S64x1024))
      (headOf x0 x1 x2 x3 3 192 slices_S16x512x64_o3_0_0_S1x512x64 slices_S16x2048x64_o3_0_0_S1x2048x64 slices_S1024x1024_o192_0_S64x1024))
      (headOf x0 x1 x2 x3 4 256 slices_S16x512x64_o4_0_0_S1x512x64 slices_S16x2048x64_o4_0_0_S1x2048x64 slices_S1024x1024_o256_0_S64x1024))
      (headOf x0 x1 x2 x3 5 320 slices_S16x512x64_o5_0_0_S1x512x64 slices_S16x2048x64_o5_0_0_S1x2048x64 slices_S1024x1024_o320_0_S64x1024))
      (headOf x0 x1 x2 x3 6 384 slices_S16x512x64_o6_0_0_S1x512x64 slices_S16x2048x64_o6_0_0_S1x2048x64 slices_S1024x1024_o384_0_S64x1024))
      (headOf x0 x1 x2 x3 7 448 slices_S16x512x64_o7_0_0_S1x512x64 slices_S16x2048x64_o7_0_0_S1x2048x64 slices_S1024x1024_o448_0_S64x1024))
      (headOf x0 x1 x2 x3 8 512 slices_S16x512x64_o8_0_0_S1x512x64 slices_S16x2048x64_o8_0_0_S1x2048x64 slices_S1024x1024_o512_0_S64x1024))
      (headOf x0 x1 x2 x3 9 576 slices_S16x512x64_o9_0_0_S1x512x64 slices_S16x2048x64_o9_0_0_S1x2048x64 slices_S1024x1024_o576_0_S64x1024))
      (headOf x0 x1 x2 x3 10 640 slices_S16x512x64_o10_0_0_S1x512x64 slices_S16x2048x64_o10_0_0_S1x2048x64 slices_S1024x1024_o640_0_S64x1024))
      (headOf x0 x1 x2 x3 11 704 slices_S16x512x64_o11_0_0_S1x512x64 slices_S16x2048x64_o11_0_0_S1x2048x64 slices_S1024x1024_o704_0_S64x1024))
      (headOf x0 x1 x2 x3 12 768 slices_S16x512x64_o12_0_0_S1x512x64 slices_S16x2048x64_o12_0_0_S1x2048x64 slices_S1024x1024_o768_0_S64x1024))
      (headOf x0 x1 x2 x3 13 832 slices_S16x512x64_o13_0_0_S1x512x64 slices_S16x2048x64_o13_0_0_S1x2048x64 slices_S1024x1024_o832_0_S64x1024))
      (headOf x0 x1 x2 x3 14 896 slices_S16x512x64_o14_0_0_S1x512x64 slices_S16x2048x64_o14_0_0_S1x2048x64 slices_S1024x1024_o896_0_S64x1024))
      (headOf x0 x1 x2 x3 15 960 slices_S16x512x64_o15_0_0_S1x512x64 slices_S16x2048x64_o15_0_0_S1x2048x64 slices_S1024x1024_o960_0_S64x1024))
    (broadcastTo S512x1024 (shapeCast S1x1024 x4 shapeCasts_S1024_S1x1024) broadcasts_S1x1024_S512x1024))
    shapeCasts_S512x1024_S1x512x1024

/-- The printed composition of the nine pieces is that. -/
theorem payload_eq :
    k1_pay1 (k1_pay4 x2) (k1_pay5 x3) (k1_pay27 (k1_pay2 x0) (k1_pay3 x1) (k1_pay4 x2) (k1_pay5 x3) (k1_pay24 (k1_pay2 x0) (k1_pay3 x1) (k1_pay4 x2) (k1_pay5 x3) (k1_pay21 (k1_pay2 x0) (k1_pay3 x1) (k1_pay4 x2) (k1_pay5 x3) (k1_pay18 (k1_pay2 x0) (k1_pay3 x1) (k1_pay4 x2) (k1_pay5 x3) (k1_pay15 (k1_pay2 x0) (k1_pay3 x1) (k1_pay4 x2) (k1_pay5 x3) (k1_pay12 (k1_pay2 x0) (k1_pay3 x1) (k1_pay4 x2) (k1_pay5 x3) (k1_pay9 (k1_pay2 x0) (k1_pay3 x1) (k1_pay4 x2) (k1_pay5 x3) (k1_pay6 x0 x1 x2 x3) (k1_pay7 x0) (k1_pay8 x1)) (k1_pay10 (k1_pay2 x0)) (k1_pay11 (k1_pay3 x1))) (k1_pay13 (k1_pay2 x0)) (k1_pay14 (k1_pay3 x1))) (k1_pay16 (k1_pay2 x0)) (k1_pay17 (k1_pay3 x1))) (k1_pay19 (k1_pay2 x0)) (k1_pay20 (k1_pay3 x1))) (k1_pay22 (k1_pay2 x0)) (k1_pay23 (k1_pay3 x1))) (k1_pay25 (k1_pay2 x0)) (k1_pay26 (k1_pay3 x1))) (k1_pay28 (k1_pay2 x0)) (k1_pay29 (k1_pay3 x1)) x4 = blockOut x0 x1 x2 x3 x4 := rfl

/-- Sixteen blocks of 64 consecutive terms, added one after the other onto zero, are the whole sum over 1024. -/
theorem blocks_sum (f : ℕ → EReal) :
    (0 : EReal) + ∑ s : Fin 64, f (64 * 0 + s.val) + ∑ s : Fin 64, f (64 * 1 + s.val) + ∑ s : Fin 64, f (64 * 2 + s.val) + ∑ s : Fin 64, f (64 * 3 + s.val) + ∑ s : Fin 64, f (64 * 4 + s.val) + ∑ s : Fin 64, f (64 * 5 + s.val) + ∑ s : Fin 64, f (64 * 6 + s.val) + ∑ s : Fin 64, f (64 * 7 + s.val) + ∑ s : Fin 64, f (64 * 8 + s.val) + ∑ s : Fin 64, f (64 * 9 + s.val) + ∑ s : Fin 64, f (64 * 10 + s.val) + ∑ s : Fin 64, f (64 * 11 + s.val) + ∑ s : Fin 64, f (64 * 12 + s.val) + ∑ s : Fin 64, f (64 * 13 + s.val) + ∑ s : Fin 64, f (64 * 14 + s.val) + ∑ s : Fin 64, f (64 * 15 + s.val) = ∑ k : Fin 1024, f k.val :=
  ((BlockAcc.partialSum_succ 64 f 15).trans (congrArg (· + ∑ s : Fin 64, f (64 * 15 + s.val)) ((BlockAcc.partialSum_succ 64 f 14).trans (congrArg (· + ∑ s : Fin 64, f (64 * 14 + s.val)) ((BlockAcc.partialSum_succ 64 f 13).trans (congrArg (· + ∑ s : Fin 64, f (64 * 13 + s.val)) ((BlockAcc.partialSum_succ 64 f 12).trans (congrArg (· + ∑ s : Fin 64, f (64 * 12 + s.val)) ((BlockAcc.partialSum_succ 64 f 11).trans (congrArg (· + ∑ s : Fin 64, f (64 * 11 + s.val)) ((BlockAcc.partialSum_succ 64 f 10).trans (congrArg (· + ∑ s : Fin 64, f (64 * 10 + s.val)) ((BlockAcc.partialSum_succ 64 f 9).trans (congrArg (· + ∑ s : Fin 64, f (64 * 9 + s.val)) ((BlockAcc.partialSum_succ 64 f 8).trans (congrArg (· + ∑ s : Fin 64, f (64 * 8 + s.val)) ((BlockAcc.partialSum_succ 64 f 7).trans (congrArg (· + ∑ s : Fin 64, f (64 * 7 + s.val)) ((BlockAcc.partialSum_succ 64 f 6).trans (congrArg (· + ∑ s : Fin 64, f (64 * 6 + s.val)) ((BlockAcc.partialSum_succ 64 f 5).trans (congrArg (· + ∑ s : Fin 64, f (64 * 5 + s.val)) ((BlockAcc.partialSum_succ 64 f 4).trans (congrArg (· + ∑ s : Fin 64, f (64 * 4 + s.val)) ((BlockAcc.partialSum_succ 64 f 3).trans (congrArg (· + ∑ s : Fin 64, f (64 * 3 + s.val)) ((BlockAcc.partialSum_succ 64 f 2).trans (congrArg (· + ∑ s : Fin 64, f (64 * 2 + s.val)) ((BlockAcc.partialSum_succ 64 f 1).trans (congrArg (· + ∑ s : Fin 64, f (64 * 1 + s.val)) ((BlockAcc.partialSum_succ 64 f 0).trans (congrArg (· + ∑ s : Fin 64, f (64 * 0 + s.val)) (BlockAcc.partialSum_zero 64 f))))))))))))))))))))))))))))))))).symm.trans (BlockAcc.partialSum_all 64 16 1024 rfl f)

/-- THE BLOCK'S RESULT AT `(p, e)`: the contraction of the heads' outputs, side by side, with column `e` of the output
    weight, plus the bias. -/
theorem blockOut_apply (p : Fin 512) (e : Fin 1024) :
    blockOut x0 x1 x2 x3 x4 (ix3 (0 : Fin 1) p e) = (∑ k : Fin 1024, term x0 x1 x2 x3 p e k) + x4 (ix1 e) := by
  unfold blockOut
  refine (shapeCast_ab_1ab_apply _ shapeCasts_S512x1024_S1x512x1024 0 p e).trans ?_
  simp only [addf_apply]
  rw [headOf_apply x0 x1 x2 x3 0 0 0 rfl rfl _ _ _ p e,
    headOf_apply x0 x1 x2 x3 1 64 1 rfl rfl _ _ _ p e,
    headOf_apply x0 x1 x2 x3 2 128 2 rfl rfl _ _ _ p e,
    headOf_apply x0 x1 x2 x3 3 192 3 rfl rfl _ _ _ p e,
    headOf_apply x0 x1 x2 x3 4 256 4 rfl rfl _ _ _ p e,
    headOf_apply x0 x1 x2 x3 5 320 5 rfl rfl _ _ _ p e,
    headOf_apply x0 x1 x2 x3 6 384 6 rfl rfl _ _ _ p e,
    headOf_apply x0 x1 x2 x3 7 448 7 rfl rfl _ _ _ p e,
    headOf_apply x0 x1 x2 x3 8 512 8 rfl rfl _ _ _ p e,
    headOf_apply x0 x1 x2 x3 9 576 9 rfl rfl _ _ _ p e,
    headOf_apply x0 x1 x2 x3 10 640 10 rfl rfl _ _ _ p e,
    headOf_apply x0 x1 x2 x3 11 704 11 rfl rfl _ _ _ p e,
    headOf_apply x0 x1 x2 x3 12 768 12 rfl rfl _ _ _ p e,
    headOf_apply x0 x1 x2 x3 13 832 13 rfl rfl _ _ _ p e,
    headOf_apply x0 x1 x2 x3 14 896 14 rfl rfl _ _ _ p e,
    headOf_apply x0 x1 x2 x3 15 960 15 rfl rfl _ _ _ p e]
  rw [show broadcast S512x1024 (Scalar.ofBits (F := Ideal) .f32 0x00000000#32) (ix2 p e) = (0 : EReal) from Ideal.ofBits_zero_f32]
  rw [blocks_sum (seq x0 x1 x2 x3 p e)]
  refine congrArg₂ (· + ·) (Finset.sum_congr rfl fun k _ => ?_) ?_
  · unfold seq; rw [dif_pos k.isLt]
  · exact (broadcastTo_1b_ab_apply _ broadcasts_S1x1024_S512x1024 p e).trans
      (shapeCast_a_1a_apply x4 shapeCasts_S1024_S1x1024 0 e)

end Block

end Cert.Mha.Head

end
-- ==== Proof.Region1.lean ====
/-
  The attention call's result array, as one function of the arrays the call finds.

  The call's grid is `4 × 4`: point `(b, r)` loads the queries of batch `b`, rows `512 r … 512 r + 511`, all 2048 key and
  value rows of batch `b`, the whole output weight and bias, and writes back rows `512 r … 512 r + 511` of batch `b` of
  the result. What it writes back is the block's result (the contraction of the heads' outputs with the weight, plus the
  bias); read through the blocks' positions this is the restriction of ONE whole-array function, `Cert.Mha.mix`, to the
  block, and the sixteen blocks cover the array.
-/
import proofs.«127099_j90941637525735_2_alg».proof.Proof.FrameKernelIdeal
import proofs.«127099_j90941637525735_2_alg».proof.Proof.Head

set_option maxRecDepth 16384

noncomputable section

open scoped BigOperators

namespace Cert.Mha.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Mha Cert.Mha.Head

variable (V : (c : Dev nD) → (b : Ref sig .tc) → Buf (Elt Ideal) ((c : Thread nD τ).loc b))

/-- The arrays the call finds: the per-head queries, keys and values, the output weight and bias. -/
abbrev Qa (c : Dev nD) : S4x16x2048x64.Idx → EReal := V c main_v3_0
abbrev Ka (c : Dev nD) : S4x16x2048x64.Idx → EReal := V c main_v3_1
abbrev Va (c : Dev nD) : S4x16x2048x64.Idx → EReal := V c main_v3_2
abbrev Wa (c : Dev nD) : S1024x1024.Idx → EReal := V c main_v2
abbrev Ba (c : Dev nD) : S1024.Idx → EReal := V c main_arg4

/-- What the result array ends holding. -/
abbrev G (c : Dev nD) : S4x2048x1024.Idx → EReal := mix (Qa V c) (Ka V c) (Va V c) (Wa V c) (Ba V c)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the sixteen grid points: the query block moves with the result block (batch
    and row block), the key and value blocks with its batch, the weight and bias stay, and the result's block indices
    stay in their ranges. -/
theorem idx_facts : ∀ t : Fin cfg1.N,
    win1_0.index t (0 : Fin 4) = win1_5.index t (0 : Fin 3) ∧ win1_0.index t (1 : Fin 4) = 0
    ∧ win1_0.index t (2 : Fin 4) = win1_5.index t (1 : Fin 3) ∧ win1_0.index t (3 : Fin 4) = 0
    ∧ win1_1.index t (0 : Fin 4) = win1_5.index t (0 : Fin 3) ∧ win1_1.index t (1 : Fin 4) = 0
    ∧ win1_1.index t (2 : Fin 4) = 0 ∧ win1_1.index t (3 : Fin 4) = 0
    ∧ win1_2.index t (0 : Fin 4) = win1_5.index t (0 : Fin 3) ∧ win1_2.index t (1 : Fin 4) = 0
    ∧ win1_2.index t (2 : Fin 4) = 0 ∧ win1_2.index t (3 : Fin 4) = 0
    ∧ win1_3.index t (0 : Fin 2) = 0 ∧ win1_3.index t (1 : Fin 2) = 0
    ∧ win1_4.index t (0 : Fin 1) = 0
    ∧ win1_5.index t (0 : Fin 3) ≤ 3 ∧ win1_5.index t (1 : Fin 3) ≤ 3 ∧ win1_5.index t (2 : Fin 3) = 0 :=
  (by decide +kernel : ∀ t : Fin grid1.N, _)

/-- Every (batch, row block) is some grid point's. -/
theorem idx_onto : ∀ (q0 q1 : Fin 4), ∃ t : Fin cfg1.N, win1_5.index t = ![q0.val, q1.val, 0] :=
  (by decide +kernel : ∀ (q0 q1 : Fin 4), ∃ t : Fin grid1.N, win1_5.index t = ![q0.val, q1.val, 0])

/-! ## A block's result against the whole-array function, over any blocks and arrays -/

/-- Blocks `x0 … x4` that read, entry by entry, as the arrays `Q K V Wo bo` do around the position `i` — the query
    block's row `p` as row `i 1` of batch `i 0`, the key and value blocks as batch `i 0`, column `e` of the weight and
    of the bias as column `i 2` — give, at `(p, e)`, the whole-array function at `i`. -/
theorem blockOut_eq_mix (x0 : Vec Ideal S1x16x512x64 .bf16) (x1 x2 : Vec Ideal S1x16x2048x64 .bf16)
    (x3 : Vec Ideal S1024x1024 .bf16) (x4 : Vec Ideal S1024 .f32)
    (Q K W : S4x16x2048x64.Idx → EReal) (Wo : S1024x1024.Idx → EReal) (bo : S1024.Idx → EReal)
    (i : S4x2048x1024.Idx) (p : Fin 512) (e : Fin 1024)
    (hq : ∀ (h : Fin 16) (d : Fin 64), x0 (ix4 (0 : Fin 1) h p d) = Q (ix4 (i 0) h (i 1) d))
    (hk : ∀ (h : Fin 16) (j : Fin 2048) (d : Fin 64), x1 (ix4 (0 : Fin 1) h j d) = K (ix4 (i 0) h j d))
    (hv : ∀ (h : Fin 16) (j : Fin 2048) (d : Fin 64), x2 (ix4 (0 : Fin 1) h j d) = W (ix4 (i 0) h j d))
    (hw : ∀ k : Fin 1024, x3 (ix2 k e) = Wo (ix2 k (i 2))) (hb : x4 (ix1 e) = bo (ix1 (i 2))) :
    blockOut x0 x1 x2 x3 x4 (ix3 (0 : Fin 1) p e) = mix Q K W Wo bo i := by
  refine (blockOut_apply x0 x1 x2 x3 x4 p e).trans ?_
  unfold mix
  refine congrArg₂ (· + ·) (Finset.sum_congr rfl fun k _ => ?_) hb
  unfold term hd heads
  rw [hw k, funext fun d' => hq _ d', funext fun j => funext fun d' => hk _ j d',
    funext fun j => funext fun d' => hv _ j d']

/-! ## The blocks a point loads, read where the result's block sits -/

section Reads

variable (c : Dev nD) (t : Fin cfg1.N) (p : Fin 512) (e : Fin 1024)

/-- The position in the result array of entry `(p, e)` of point `t`'s block. -/
abbrev pos : S4x2048x1024.Idx := ((cfg1.win 5).blk t).view.emb (ix3 (0 : Fin 1) p e)

theorem pos_col : (pos t p e 2).val = e.val := by
  obtain ⟨-, -, -, -, -, -, -, -, -, -, -, -, -, -, -, -, -, e5⟩ := idx_facts t
  show win1_5.index t (2 : Fin 3) * 1024 + 1 * e.val = e.val
  omega

/-- The query block at `(0, h, p, d)` is the query array at (the block's batch, `h`, the block's row, `d`). -/
theorem q_read (h : Fin 16) (d : Fin 64) :
    iblk1 V c 0 t (ix4 (0 : Fin 1) h p d) = Qa V c (ix4 (pos t p e 0) h (pos t p e 1) d) := by
  obtain ⟨e0, e1, e2, e3, -⟩ := idx_facts t
  show Qa V c (((cfg1.win 0).blk t).view.emb (ix4 (0 : Fin 1) h p d)) = _
  refine congrArg (Qa V c) (funext fun a => Fin.ext ?_)
  match a with
  | ⟨0, _⟩ => show win1_0.index t (0 : Fin 4) * 1 + 1 * 0 = win1_5.index t (0 : Fin 3) * 1 + 1 * 0; omega
  | ⟨1, _⟩ => show win1_0.index t (1 : Fin 4) * 16 + 1 * h.val = h.val; omega
  | ⟨2, _⟩ => show win1_0.index t (2 : Fin 4) * 512 + 1 * p.val = win1_5.index t (1 : Fin 3) * 512 + 1 * p.val; omega
  | ⟨3, _⟩ => show win1_0.index t (3 : Fin 4) * 64 + 1 * d.val = d.val; omega

/-- The key block at `(0, h, j, d)` is the key array at (the block's batch, `h`, `j`, `d`). -/
theorem k_read (h : Fin 16) (j : Fin 2048) (d : Fin 64) :
    iblk1 V c 1 t (ix4 (0 : Fin 1) h j d) = Ka V c (ix4 (pos t p e 0) h j d) := by
  obtain ⟨-, -, -, -, e0, e1, e2, e3, -⟩ := idx_facts t
  show Ka V c (((cfg1.win 1).blk t).view.emb (ix4 (0 : Fin 1) h j d)) = _
  refine congrArg (Ka V c) (funext fun a => Fin.ext ?_)
  match a with
  | ⟨0, _⟩ => show win1_1.index t (0 : Fin 4) * 1 + 1 * 0 = win1_5.index t (0 : Fin 3) * 1 + 1 * 0; omega
  | ⟨1, _⟩ => show win1_1.index t (1 : Fin 4) * 16 + 1 * h.val = h.val; omega
  | ⟨2, _⟩ => show win1_1.index t (2 : Fin 4) * 2048 + 1 * j.val = j.val; omega
  | ⟨3, _⟩ => show win1_1.index t (3 : Fin 4) * 64 + 1 * d.val = d.val; omega

/-- The value block likewise. -/
theorem v_read (h : Fin 16) (j : Fin 2048) (d : Fin 64) :
    iblk1 V c 2 t (ix4 (0 : Fin 1) h j d) = Va V c (ix4 (pos t p e 0) h j d) := by
  obtain ⟨-, -, -, -, -, -, -, -, e0, e1, e2, e3, -⟩ := idx_facts t
  show Va V c (((cfg1.win 2).blk t).view.emb (ix4 (0 : Fin 1) h j d)) = _
  refine congrArg (Va V c) (funext fun a => Fin.ext ?_)
  match a with
  | ⟨0, _⟩ => show win1_2.index t (0 : Fin 4) * 1 + 1 * 0 = win1_5.index t (0 : Fin 3) * 1 + 1 * 0; omega
  | ⟨1, _⟩ => show win1_2.index t (1 : Fin 4) * 16 + 1 * h.val = h.val; omega
  | ⟨2, _⟩ => show win1_2.index t (2 : Fin 4) * 2048 + 1 * j.val = j.val; omega
  | ⟨3, _⟩ => show win1_2.index t (3 : Fin 4) * 64 + 1 * d.val = d.val; omega

/-- The weight block is the whole weight; its entry `(k, e)` sits at column `e` = the result entry's column. -/
theorem w_read (k : Fin 1024) : iblk1 V c 3 t (ix2 k e) = Wa V c (ix2 k (pos t p e 2)) := by
  obtain ⟨-, -, -, -, -, -, -, -, -, -, -, -, e0, e1, -⟩ := idx_facts t
  have hc := pos_col t p e
  show Wa V c (((cfg1.win 3).blk t).view.emb (ix2 k e)) = _
  refine congrArg (Wa V c) (funext fun a => Fin.ext ?_)
  match a with
  | ⟨0, _⟩ => show win1_3.index t (0 : Fin 2) * 1024 + 1 * k.val = k.val; omega
  | ⟨1, _⟩ => show win1_3.index t (1 : Fin 2) * 1024 + 1 * e.val = (pos t p e 2).val; omega

/-- The bias block is the whole bias. -/
theorem b_read : iblk1 V c 4 t (ix1 e) = Ba V c (ix1 (pos t p e 2)) := by
  obtain ⟨-, -, -, -, -, -, -, -, -, -, -, -, -, -, e0, -⟩ := idx_facts t
  have hc := pos_col t p e
  show Ba V c (((cfg1.win 4).blk t).view.emb (ix1 e)) = _
  refine congrArg (Ba V c) (funext fun a => Fin.ext ?_)
  match a with
  | ⟨0, _⟩ => show win1_4.index t (0 : Fin 1) * 1024 + 1 * e.val = (pos t p e 2).val; omega

/-- So entry `(p, e)` of what point `t` computes is the whole-array function at the entry's position. -/
theorem block_eq :
    blockOut (iblk1 V c 0 t) (iblk1 V c 1 t) (iblk1 V c 2 t) (iblk1 V c 3 t) (iblk1 V c 4 t) (ix3 (0 : Fin 1) p e)
      = G V c (pos t p e) :=
  blockOut_eq_mix (iblk1 V c 0 t) (iblk1 V c 1 t) (iblk1 V c 2 t) (iblk1 V c 3 t) (iblk1 V c 4 t)
    (Qa V c) (Ka V c) (Va V c) (Wa V c) (Ba V c) (pos t p e) p e
    (fun h d => q_read V c t p e h d) (fun h j d => k_read V c t p e h j d) (fun h j d => v_read V c t p e h j d)
    (fun k => w_read V c t p e k) (b_read V c t p e)

end Reads

/-! ## From the blocks to the array -/

/-- WHAT POINT `t` WRITES BACK is block `t` of the whole-array function. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz3]
  simp only [View.ld_unit_zero (S := S1x16x512x64) hz4, View.ld_unit_zero (S := S1x16x2048x64) hz4,
    View.ld_unit_zero (S := S1024x1024) hz2, View.ld_unit_zero (S := S1024) hz1]
  rw [payload_eq]
  funext y
  obtain ⟨u, p, e, rfl⟩ : ∃ (u : Fin 1) (p : Fin 512) (e : Fin 1024), y = ix3 u p e := ⟨y 0, y 1, y 2, eq_ix3 y⟩
  obtain rfl : u = 0 := Subsingleton.elim _ _
  exact block_eq V c t p e

/-- An index of the result array is in point `t`'s block iff each coordinate is in the block's range on its axis. -/
theorem mem_blk (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v4).slice (win1_5.rect t)).set ↔ _
  rw [View.set_slice_whole, Rect.mem_set_unit]
  exact Iff.rfl

/-- The sixteen blocks cover the array: row `l` of batch `b` is in the block of point `(b, l / 512)`. -/
theorem cover (i : S4x2048x1024.Idx) :
    ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- THE RESULT ARRAY after the call: the whole-array function of the arrays the call found. -/
theorem arr_out (c : Dev nD) : (dat1 (F := Ideal) V c).arrAt 5 cfg1.N = G V c :=
  (dat1 V c).arrAt_eq_of_cover 5 (G V c) (fun t _ => flushed_eq V c t) (cover)

end Cert.Mha.Region1

end
-- ==== Proof.KernelValue.lean ====
/-
  What the idealized kernel program leaves in its result array, as one function of the five argument arrays.

  The host stretch only changes the float format of `x`, `W_qkv` and `W_out` (the identity on extended reals). The
  projection call leaves the per-head queries, keys and values: the three parts of `x · W_qkv + b_qkv`. The attention
  call, entered from those arrays, leaves the heads' outputs, side by side, times `W_out` plus `b_out`. Composed, the
  result array is `Cert.Mha.result` of the arguments.
-/
import proofs.«127099_j90941637525735_2_alg».proof.Proof.KernelRun
import proofs.«127099_j90941637525735_2_alg».proof.Proof.Region0
import proofs.«127099_j90941637525735_2_alg».proof.Proof.Region1
import Idealize.ShloMosaic.Lib.StableHlo.Run

set_option maxRecDepth 16384

noncomputable section

namespace Cert.Mha.Value

open Cert.KernelIdeal Cert.KernelIdeal.Gen Cert.KernelIdeal.GenP
open Idealize.ShloMosaic Idealize.ShloMosaic.TcCoe Idealize.ShloMosaic.StableHlo Idealize.SL.Sem
open Cert.Mha

variable (m : (ℓ : Loc nD τ sig) → Buf (Elt Ideal) ℓ) (ρ : Dev nD → PrngReg)

/-! ## After the host stretch: the format changes are the identity -/

theorem host_x (c : Dev nD) : (V1 m ρ c main_v0 : S4x2048x1024.Idx → EReal) = m ((c : Thread nD τ).loc main_arg0) := by
  show StableHlo.after hostOps0 (W0 m ρ c) (Proc.devRef .tc main_v0) = _
  after_results
  rfl

theorem host_w (c : Dev nD) : (V1 m ρ c main_v1 : S1024x3072.Idx → EReal) = m ((c : Thread nD τ).loc main_arg1) := by
  show StableHlo.after hostOps0 (W0 m ρ c) (Proc.devRef .tc main_v1) = _
  after_results
  rfl

theorem host_wo (c : Dev nD) : (V1 m ρ c main_v2 : S1024x1024.Idx → EReal) = m ((c : Thread nD τ).loc main_arg3) := by
  show StableHlo.after hostOps0 (W0 m ρ c) (Proc.devRef .tc main_v2) = _
  after_results
  rfl

theorem host_bq (c : Dev nD) : (V1 m ρ c main_arg2 : S3072.Idx → EReal) = m ((c : Thread nD τ).loc main_arg2) := by
  show StableHlo.after hostOps0 (W0 m ρ c) (Proc.devRef .tc main_arg2) = _
  after_results

theorem host_bo (c : Dev nD) : (V1 m ρ c main_arg4 : S1024.Idx → EReal) = m ((c : Thread nD τ).loc main_arg4) := by
  show StableHlo.after hostOps0 (W0 m ρ c) (Proc.devRef .tc main_arg4) = _
  after_results

/-! ## After the projection call -/

/-- Part `s` of the projection of the ARGUMENTS. -/
abbrev partOf (s : Fin 3) (c : Dev nD) : S4x16x2048x64.Idx → EReal :=
  part s (m ((c : Thread nD τ).loc main_arg0)) (m ((c : Thread nD τ).loc main_arg1)) (m ((c : Thread nD τ).loc main_arg2))

theorem queries (c : Dev nD) : (V2 m ρ c main_v3_0 : S4x16x2048x64.Idx → EReal) = partOf m 0 c :=
  (W2_arr m ρ c 3).trans ((Region0.arr_q (V1 m ρ) c).trans (by rw [host_x, host_w, host_bq]))

theorem keys (c : Dev nD) : (V2 m ρ c main_v3_1 : S4x16x2048x64.Idx → EReal) = partOf m 1 c :=
  (W2_arr m ρ c 4).trans ((Region0.arr_k (V1 m ρ) c).trans (by rw [host_x, host_w, host_bq]))

theorem values (c : Dev nD) : (V2 m ρ c main_v3_2 : S4x16x2048x64.Idx → EReal) = partOf m 2 c :=
  (W2_arr m ρ c 5).trans ((Region0.arr_v (V1 m ρ) c).trans (by rw [host_x, host_w, host_bq]))

/-- The projection call writes neither the output weight nor the output bias. -/
theorem weight_kept (c : Dev nD) : (V2 m ρ c main_v2 : S1024x1024.Idx → EReal) = m ((c : Thread nD τ).loc main_arg3) :=
  (W2_of_ne m ρ c main_v2 (by decide)).trans (host_wo m ρ c)

theorem bias_kept (c : Dev nD) : (V2 m ρ c main_arg4 : S1024.Idx → EReal) = m ((c : Thread nD τ).loc main_arg4) :=
  (W2_of_ne m ρ c main_arg4 (by decide)).trans (host_bo m ρ c)

/-! ## After the attention call -/

/-- THE RESULT ARRAY: the whole layer of the argument arrays. -/
theorem result_eq (c : Dev nD) :
    (dat1 (F := Ideal) (V2 m ρ) c).arrAt 5 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (Region1.arr_out (V2 m ρ) c).trans ?_
  show mix (V2 m ρ c main_v3_0 : S4x16x2048x64.Idx → EReal) (V2 m ρ c main_v3_1 : S4x16x2048x64.Idx → EReal)
    (V2 m ρ c main_v3_2 : S4x16x2048x64.Idx → EReal) (V2 m ρ c main_v2 : S1024x1024.Idx → EReal)
    (V2 m ρ c main_arg4 : S1024.Idx → EReal) = _
  rw [queries, keys, values, weight_kept, bias_kept]
  rfl

/-- The kernel program's run with the result array named. -/
theorem run : θ_run defs (onTc (τ := τ) (main (F := Ideal))) ⟨m, fun _ => 0, ρ⟩ (fun r => ∀ c : Dev nD,
      r.2.mem ((c.tc : Thread nD τ).loc main_v4)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Run.result_contents m ρ)

end Cert.Mha.Value

end
-- ==== Proof.RefRead.lean ====
/-
  The reference program, read operation by operation, computes the multi-head attention layer of the specification.

  The reference first forms the fused projection X · W + bq, re-lays its 3072 columns as three parts of 16 heads of
  64 coordinates, takes for every (batch, head, query position) the scaled scores against the 2048 key positions,
  their shifted softmax along the key positions, the weighted mean of the value rows, lays the 16 heads side by side
  and multiplies by Wo and adds bo. Each section below reads one of these stages at an index; the last one puts
  them together.
-/
import proofs.«127099_j90941637525735_2_alg».proof.Proof.Gen.ReferenceIdeal.Read
import proofs.«127099_j90941637525735_2_alg».proof.Proof.Spec

noncomputable section

open scoped BigOperators

namespace Cert.Mha.Ref

open Cert.ReferenceIdeal Cert.ReferenceIdeal.Gen Cert.ReferenceIdeal.Read Idealize.ShloMosaic Idealize.ShloMosaic.ValueIdx
  Cert.RowSoftmax

variable (x0 : (⟨S4x2048x1024, .f32⟩ : BufTy).Contents (Elt Ideal)) (x1 : (⟨S1024x3072, .f32⟩ : BufTy).Contents (Elt Ideal))
  (x2 : (⟨S3072, .f32⟩ : BufTy).Contents (Elt Ideal))

/-! ## The fused projection -/

/-- The first product's left operand is read at (b, l, k) for entry (b, l, j) and contraction coordinate k. -/
theorem proj_lhs_idx (b : Fin 4) (l : Fin 2048) (j : Fin 3072) (k : Fin 1024) :
    lidx_main_v0 (ix3 b l j) k = ix3 b l k :=
  funext fun a => by match a with | ⟨0, _⟩ => rfl | ⟨1, _⟩ => rfl | ⟨2, _⟩ => rfl

/-- The first product's right operand is read at (k, j). -/
theorem proj_rhs_idx (b : Fin 4) (l : Fin 2048) (j : Fin 3072) (k : Fin 1024) :
    ridx_main_v0 (ix3 b l j) k = ix2 k j :=
  funext fun a => by match a with | ⟨0, _⟩ => rfl | ⟨1, _⟩ => rfl

/-- The bias, spread over batches and positions, is read at column j. -/
theorem proj_bias_idx (b : Fin 4) (l : Fin 2048) (j : Fin 3072) :
    idx_main_v1 (idx_main_v2 (ix3 b l j)) = ix1 j :=
  funext fun a => by match a with | ⟨0, _⟩ => rfl

/-- Entry (b, l, j) of the program's X · W + bq is the specification's projection. -/
theorem proj_apply (b : Fin 4) (l : Fin 2048) (j : Fin 3072) :
    val_main_v3 (F := Ideal) x0 x1 x2 (ix3 b l j) = proj x0 x1 x2 b l j := by
  rw [val_main_v3_apply, val_main_v0_apply, val_main_v2_apply, val_main_v1_apply, proj_bias_idx]
  refine congrArg (· + x2 (ix1 j)) (Finset.sum_congr rfl fun k _ => ?_)
  rw [proj_lhs_idx, proj_rhs_idx]

/-! ## The three parts, per head -/

/-- The flat position of (b, l, s, h, d) in [4, 2048, 3, 16, 64], read as a position in [4, 2048, 3072], is
    (b, l, s · 1024 + h · 64 + d): a reshape keeps the row-major position. -/
theorem split_idx (b : Fin 4) (l : Fin 2048) (s : Fin 3) (h : Fin 16) (d : Fin 64) :
    idx_main_v4 (ix5 b l s h d) = ix3 b l (col s h d) := by
  have hb := b.isLt; have hl := l.isLt; have hs := s.isLt; have hh := h.isLt; have hd := d.isLt
  exact funext fun a => Fin.ext (by
    match a with
    | ⟨0, _⟩ =>
      show ((((b.val * 2048 + l.val) * 3 + s.val) * 16 + h.val) * 64 + d.val) / 6291456 = b.val
      omega
    | ⟨1, _⟩ =>
      show ((((b.val * 2048 + l.val) * 3 + s.val) * 16 + h.val) * 64 + d.val) / 3072 % 2048 = l.val
      omega
    | ⟨2, _⟩ =>
      show ((((b.val * 2048 + l.val) * 3 + s.val) * 16 + h.val) * 64 + d.val) % 3072 = s.val * 1024 + h.val * 64 + d.val
      omega)

/-- The transpose [2, 0, 3, 1, 4] reads (s, b, h, l, d) at (b, l, s, h, d). -/
theorem transpose_idx (s : Fin 3) (b : Fin 4) (h : Fin 16) (l : Fin 2048) (d : Fin 64) :
    idx_main_v5 (ix5 s b h l d) = ix5 b l s h d :=
  funext fun a => by match a with | ⟨0, _⟩ => rfl | ⟨1, _⟩ => rfl | ⟨2, _⟩ => rfl | ⟨3, _⟩ => rfl | ⟨4, _⟩ => rfl

/-- Entry (s, b, h, l, d) of the transposed projection is the projection at (b, l) and the column of coordinate d
    of head h of part s. -/
theorem transposed_apply (s : Fin 3) (b : Fin 4) (h : Fin 16) (l : Fin 2048) (d : Fin 64) :
    val_main_v5 (F := Ideal) x0 x1 x2 (ix5 s b h l d) = proj x0 x1 x2 b l (col s h d) := by
  rw [val_main_v5_apply, transpose_idx, val_main_v4_apply, split_idx, proj_apply]

/-- A row-major position in [4, 16, 2048, 64] taken apart again gives back its four coordinates. -/
theorem unflat_coords (b : Fin 4) (h : Fin 16) (l : Fin 2048) (d : Fin 64) :
    (((b.val * 16 + h.val) * 2048 + l.val) * 64 + d.val) / 2097152 % 4 = b.val
      ∧ (((b.val * 16 + h.val) * 2048 + l.val) * 64 + d.val) / 131072 % 16 = h.val
      ∧ (((b.val * 16 + h.val) * 2048 + l.val) * 64 + d.val) / 64 % 2048 = l.val
      ∧ (((b.val * 16 + h.val) * 2048 + l.val) * 64 + d.val) % 64 = d.val := by
  have hb := b.isLt; have hh := h.isLt; have hl := l.isLt; have hd := d.isLt
  refine ⟨?_, ?_, ?_, ?_⟩ <;> omega

/-- Dropping the leading unit axis of the queries' slice: (b, h, l, d) is read at (0, b, h, l, d). -/
theorem queries_unit_idx (b : Fin 4) (h : Fin 16) (l : Fin 2048) (d : Fin 64) :
    idx_main_v7 (ix4 b h l d) = ix5 (0 : Fin 1) b h l d := by
  obtain ⟨eb, eh, el, ed⟩ := unflat_coords b h l d
  exact funext fun a => Fin.ext (by
    match a with
    | ⟨0, _⟩ => rfl
    | ⟨1, _⟩ => exact eb
    | ⟨2, _⟩ => exact eh
    | ⟨3, _⟩ => exact el
    | ⟨4, _⟩ => exact ed)

/-- The same for the keys' slice. -/
theorem keys_unit_idx (b : Fin 4) (h : Fin 16) (l : Fin 2048) (d : Fin 64) :
    idx_main_v9 (ix4 b h l d) = ix5 (0 : Fin 1) b h l d := by
  obtain ⟨eb, eh, el, ed⟩ := unflat_coords b h l d
  exact funext fun a => Fin.ext (by
    match a with
    | ⟨0, _⟩ => rfl
    | ⟨1, _⟩ => exact eb
    | ⟨2, _⟩ => exact eh
    | ⟨3, _⟩ => exact el
    | ⟨4, _⟩ => exact ed)

/-- The same for the values' slice. -/
theorem values_unit_idx (b : Fin 4) (h : Fin 16) (l : Fin 2048) (d : Fin 64) :
    idx_main_v11 (ix4 b h l d) = ix5 (0 : Fin 1) b h l d := by
  obtain ⟨eb, eh, el, ed⟩ := unflat_coords b h l d
  exact funext fun a => Fin.ext (by
    match a with
    | ⟨0, _⟩ => rfl
    | ⟨1, _⟩ => exact eb
    | ⟨2, _⟩ => exact eh
    | ⟨3, _⟩ => exact el
    | ⟨4, _⟩ => exact ed)

/-- The slice that starts at part 0 reads part 0. -/
theorem queries_slice_idx (b : Fin 4) (h : Fin 16) (l : Fin 2048) (d : Fin 64) :
    idx_main_v6 (ix5 (0 : Fin 1) b h l d) = ix5 (0 : Fin 3) b h l d :=
  funext fun a => by match a with | ⟨0, _⟩ => rfl | ⟨1, _⟩ => rfl | ⟨2, _⟩ => rfl | ⟨3, _⟩ => rfl | ⟨4, _⟩ => rfl

/-- The slice that starts at part 1 reads part 1. -/
theorem keys_slice_idx (b : Fin 4) (h : Fin 16) (l : Fin 2048) (d : Fin 64) :
    idx_main_v8 (ix5 (0 : Fin 1) b h l d) = ix5 (1 : Fin 3) b h l d :=
  funext fun a => by match a with | ⟨0, _⟩ => rfl | ⟨1, _⟩ => rfl | ⟨2, _⟩ => rfl | ⟨3, _⟩ => rfl | ⟨4, _⟩ => rfl

/-- The slice that starts at part 2 reads part 2. -/
theorem values_slice_idx (b : Fin 4) (h : Fin 16) (l : Fin 2048) (d : Fin 64) :
    idx_main_v10 (ix5 (0 : Fin 1) b h l d) = ix5 (2 : Fin 3) b h l d :=
  funext fun a => by match a with | ⟨0, _⟩ => rfl | ⟨1, _⟩ => rfl | ⟨2, _⟩ => rfl | ⟨3, _⟩ => rfl | ⟨4, _⟩ => rfl

/-- The program's queries, per head, are part 0 of the specification's projection. -/
theorem queries_eq : val_main_v7 (F := Ideal) x0 x1 x2 = part 0 x0 x1 x2 := by
  funext i
  obtain ⟨b, h, l, d, rfl⟩ : ∃ (b : Fin 4) (h : Fin 16) (l : Fin 2048) (d : Fin 64), i = ix4 b h l d :=
    ⟨i 0, i 1, i 2, i 3, eq_ix4 i⟩
  rw [val_main_v7_apply, queries_unit_idx, val_main_v6_apply, queries_slice_idx, transposed_apply]
  rfl

/-- The program's keys, per head, are part 1. -/
theorem keys_eq : val_main_v9 (F := Ideal) x0 x1 x2 = part 1 x0 x1 x2 := by
  funext i
  obtain ⟨b, h, l, d, rfl⟩ : ∃ (b : Fin 4) (h : Fin 16) (l : Fin 2048) (d : Fin 64), i = ix4 b h l d :=
    ⟨i 0, i 1, i 2, i 3, eq_ix4 i⟩
  rw [val_main_v9_apply, keys_unit_idx, val_main_v8_apply, keys_slice_idx, transposed_apply]
  rfl

/-- The program's values, per head, are part 2. -/
theorem values_eq : val_main_v11 (F := Ideal) x0 x1 x2 = part 2 x0 x1 x2 := by
  funext i
  obtain ⟨b, h, l, d, rfl⟩ : ∃ (b : Fin 4) (h : Fin 16) (l : Fin 2048) (d : Fin 64), i = ix4 b h l d :=
    ⟨i 0, i 1, i 2, i 3, eq_ix4 i⟩
  rw [val_main_v11_apply, values_unit_idx, val_main_v10_apply, values_slice_idx, transposed_apply]
  rfl

/-! ## The scaled scores -/

/-- The scores' left operand is the query row (b, h, l). -/
theorem scores_lhs_idx (b : Fin 4) (h : Fin 16) (l j : Fin 2048) (d : Fin 64) :
    lidx_main_v12 (ix4 b h l j) d = ix4 b h l d :=
  funext fun a => by match a with | ⟨0, _⟩ => rfl | ⟨1, _⟩ => rfl | ⟨2, _⟩ => rfl | ⟨3, _⟩ => rfl

/-- The scores' right operand is the key row (b, h, j). -/
theorem scores_rhs_idx (b : Fin 4) (h : Fin 16) (l j : Fin 2048) (d : Fin 64) :
    ridx_main_v12 (ix4 b h l j) d = ix4 b h j d :=
  funext fun a => by match a with | ⟨0, _⟩ => rfl | ⟨1, _⟩ => rfl | ⟨2, _⟩ => rfl | ⟨3, _⟩ => rfl

/-- The score of query position l against key position j, for batch b and head h: the dot product of the query row
    with the key row, times the scale. -/
theorem scores_apply (b : Fin 4) (h : Fin 16) (l j : Fin 2048) :
    val_main_v14 (F := Ideal) x0 x1 x2 (ix4 b h l j)
      = (∑ d : Fin 64, part 0 x0 x1 x2 (ix4 b h l d) * part 1 x0 x1 x2 (ix4 b h j d)) * scale := by
  rw [val_main_v14_apply, val_main_v12_apply, val_main_v13_apply, val_main_cst_apply, queries_eq, keys_eq]
  refine congrArg (· * scale) (Finset.sum_congr rfl fun d _ => ?_)
  rw [scores_lhs_idx, scores_rhs_idx]

/-! ## The shifted softmax along the key positions -/

/-- A reduction over the last axis of a rank-4 array reads, for the result index (a, b, c) and the coordinate k on
    the dropped axis, the index (a, b, c, k). -/
theorem lift_last4 {n0 n1 n2 n3 : ℕ} (hr : (⟨4, ![n0, n1, n2, n3]⟩ : Shape).Reduces [3] ⟨3, ![n0, n1, n2]⟩)
    (a : Fin n0) (b : Fin n1) (c : Fin n2) (k : Fin n3) : hr.lift (ix3 a b c) k = ix4 a b c k :=
  funext fun e => Fin.ext (by
    match e with
    | ⟨0, _⟩ => rfl
    | ⟨1, _⟩ => rfl
    | ⟨2, _⟩ => rfl
    | ⟨3, _⟩ => rfl)

/-- The host's maximum over the last axis of a rank-4 array, at (a, b, c): the fold of max over the coordinates of
    that axis, started from the initial value. -/
theorem hostMax_last4_apply {n0 n1 n2 n3 : ℕ} {u : Shape} (x : FVec Ideal ⟨4, ![n0, n1, n2, n3]⟩ .f32)
    (init : FVec Ideal u .f32) (h' : (⟨4, ![n0, n1, n2, n3]⟩ : Shape).ReducesTo [3] ⟨3, ![n0, n1, n2]⟩)
    (hr : (⟨4, ![n0, n1, n2, n3]⟩ : Shape).Reduces [3] ⟨3, ![n0, n1, n2]⟩) (hu : 0 < u.numel)
    (a : Fin n0) (b : Fin n1) (c : Fin n2) :
    Host.reduce FloatOps.maximumf x init h' hu (ix3 a b c)
      = (Finset.univ : Finset (Fin n3)).fold max (init (Shape.Idx.first hu)) (fun k => x (ix4 a b c k)) :=
  (Host.reduce_eq_fold_single FloatOps.maximumf x init h' hr hu (ix3 a b c)).trans
    (congrArg ((Finset.univ : Finset (Fin n3)).fold max (init (Shape.Idx.first hu)))
      (funext fun k => congrArg x (lift_last4 hr a b c k)))

/-- The program's maximum over the key positions, at (b, h, l): the fold of max over the scores' row, started from
    the word of -∞. -/
theorem rowMax_apply (b : Fin 4) (h : Fin 16) (l : Fin 2048) :
    val_main_v15 (F := Ideal) x0 x1 x2 (ix3 b h l)
      = rowMax negInf (fun j => val_main_v14 (F := Ideal) x0 x1 x2 (ix4 b h l j)) := by
  unfold val_main_v15
  generalize val_main_v14 (F := Ideal) x0 x1 x2 = y
  exact hostMax_last4_apply y (val_main_cst_0 (F := Ideal)) reducesTo_S4x16x2048x2048_S4x16x2048_d3 (by decide) h_S_ b h l

/-- The maximum the program subtracts is that row maximum: taking the maximum with -∞ once more changes nothing. -/
theorem shift_apply (b : Fin 4) (h : Fin 16) (l : Fin 2048) :
    val_main_v17 (F := Ideal) x0 x1 x2 (ix3 b h l)
      = rowMax negInf (fun j => val_main_v14 (F := Ideal) x0 x1 x2 (ix4 b h l j)) := by
  rw [val_main_v17_apply, val_main_v16_apply, val_main_cst_1_apply, rowMax_apply]
  exact max_rowMax negInf _

/-- The row maximum, kept as a column and spread back along the key positions, is read at (b, h, l). -/
theorem shift_spread_idx (b : Fin 4) (h : Fin 16) (l j : Fin 2048) :
    idx_main_v18 (idx_main_v19 (ix4 b h l j)) = ix3 b h l :=
  funext fun a => by match a with | ⟨0, _⟩ => rfl | ⟨1, _⟩ => rfl | ⟨2, _⟩ => rfl

/-- The exponential of a score less its row's maximum. -/
theorem exps_apply (b : Fin 4) (h : Fin 16) (l j : Fin 2048) :
    val_main_v21 (F := Ideal) x0 x1 x2 (ix4 b h l j)
      = Ideal.exp (val_main_v14 (F := Ideal) x0 x1 x2 (ix4 b h l j)
          - rowMax negInf (fun j' => val_main_v14 (F := Ideal) x0 x1 x2 (ix4 b h l j'))) := by
  rw [val_main_v21_apply, val_main_v20_apply, val_main_v19_apply, val_main_v18_apply, shift_spread_idx, shift_apply,
    Ideal.hostUnary_exp_def]
  rfl

/-- The row sum reads the exponentials of row (b, h, l). -/
theorem expSum_term_idx (b : Fin 4) (h : Fin 16) (l k : Fin 2048) :
    idx_main_v22 (ix3 b h l) k = ix4 b h l k :=
  funext fun a => by match a with | ⟨0, _⟩ => rfl | ⟨1, _⟩ => rfl | ⟨2, _⟩ => rfl | ⟨3, _⟩ => rfl

/-- The sum of the exponentials along the key positions: the program starts it from the zero word, which adds
    nothing. -/
theorem expSum_apply (b : Fin 4) (h : Fin 16) (l : Fin 2048) :
    val_main_v22 (F := Ideal) x0 x1 x2 (ix3 b h l)
      = ∑ k : Fin 2048, Ideal.exp (val_main_v14 (F := Ideal) x0 x1 x2 (ix4 b h l k)
          - rowMax negInf (fun j' => val_main_v14 (F := Ideal) x0 x1 x2 (ix4 b h l j'))) := by
  rw [val_main_v22_apply, val_main_cst_2_apply]
  show Ideal.ofBits .f32 0x00000000#32 + _ = _
  rw [Ideal.ofBits_zero_f32, zero_add]
  refine Finset.sum_congr rfl fun k _ => ?_
  rw [expSum_term_idx, exps_apply]

/-- The row sum, kept as a column and spread back along the key positions, is read at (b, h, l). -/
theorem expSum_spread_idx (b : Fin 4) (h : Fin 16) (l j : Fin 2048) :
    idx_main_v23 (idx_main_v24 (ix4 b h l j)) = ix3 b h l :=
  funext fun a => by match a with | ⟨0, _⟩ => rfl | ⟨1, _⟩ => rfl | ⟨2, _⟩ => rfl

/-- The attention weight of key position j for the query position l is the shifted softmax of the scores' row. -/
theorem weights_apply (b : Fin 4) (h : Fin 16) (l j : Fin 2048) :
    val_main_v25 (F := Ideal) x0 x1 x2 (ix4 b h l j)
      = softmax negInf (fun j' => val_main_v14 (F := Ideal) x0 x1 x2 (ix4 b h l j')) j := by
  rw [val_main_v25_apply, val_main_v24_apply, val_main_v23_apply, expSum_spread_idx, expSum_apply, exps_apply,
    Ideal.hostDivf_def]
  rfl

/-! ## The heads' outputs -/

/-- The weighted mean's left operand is the weights' row (b, h, l). -/
theorem heads_lhs_idx (b : Fin 4) (h : Fin 16) (l : Fin 2048) (d : Fin 64) (k : Fin 2048) :
    lidx_main_v26 (ix4 b h l d) k = ix4 b h l k :=
  funext fun a => by match a with | ⟨0, _⟩ => rfl | ⟨1, _⟩ => rfl | ⟨2, _⟩ => rfl | ⟨3, _⟩ => rfl

/-- Its right operand is coordinate d of the value row (b, h, k). -/
theorem heads_rhs_idx (b : Fin 4) (h : Fin 16) (l : Fin 2048) (d : Fin 64) (k : Fin 2048) :
    ridx_main_v26 (ix4 b h l d) k = ix4 b h k d :=
  funext fun a => by match a with | ⟨0, _⟩ => rfl | ⟨1, _⟩ => rfl | ⟨2, _⟩ => rfl | ⟨3, _⟩ => rfl

/-- Coordinate d of head h's output at batch b and query position l: the value rows weighted by the softmax of the
    scaled scores of the query row against the key rows. -/
theorem heads_apply (b : Fin 4) (h : Fin 16) (l : Fin 2048) (d : Fin 64) :
    val_main_v26 (F := Ideal) x0 x1 x2 (ix4 b h l d)
      = heads (part 0 x0 x1 x2) (part 1 x0 x1 x2) (part 2 x0 x1 x2) b l h d := by
  rw [val_main_v26_apply, values_eq]
  show _ = ∑ k : Fin 2048, softmax negInf (fun j' => (∑ d' : Fin 64, part 0 x0 x1 x2 (ix4 b h l d')
      * part 1 x0 x1 x2 (ix4 b h j' d')) * scale) k * part 2 x0 x1 x2 (ix4 b h k d)
  refine Finset.sum_congr rfl fun k _ => ?_
  rw [heads_lhs_idx, heads_rhs_idx, weights_apply]
  exact congrArg (fun y => softmax negInf y k * part 2 x0 x1 x2 (ix4 b h k d))
    (funext fun j' => scores_apply x0 x1 x2 b h l j')

/-! ## The heads side by side -/

/-- Column k of the [4, 2048, 1024] layout is coordinate k % 64 of head k / 64: the reshape keeps the row-major
    position, and the transpose before it had exchanged the head and position axes. -/
theorem concat_idx (b : Fin 4) (l : Fin 2048) (k : Fin 1024) :
    idx_main_v27 (idx_main_v28 (ix3 b l k))
      = ix4 b (⟨k.val / 64, by have := k.isLt; omega⟩ : Fin 16) l (⟨k.val % 64, by omega⟩ : Fin 64) := by
  have hb := b.isLt; have hl := l.isLt; have hk := k.isLt
  exact funext fun a => Fin.ext (by
    match a with
    | ⟨0, _⟩ =>
      show ((b.val * 2048 + l.val) * 1024 + k.val) / 2097152 = b.val
      omega
    | ⟨1, _⟩ =>
      show ((b.val * 2048 + l.val) * 1024 + k.val) / 64 % 16 = k.val / 64
      omega
    | ⟨2, _⟩ =>
      show ((b.val * 2048 + l.val) * 1024 + k.val) / 1024 % 2048 = l.val
      omega
    | ⟨3, _⟩ =>
      show ((b.val * 2048 + l.val) * 1024 + k.val) % 64 = k.val % 64
      omega)

/-- Entry (b, l, k) of the heads laid side by side. -/
theorem concat_apply (b : Fin 4) (l : Fin 2048) (k : Fin 1024) :
    val_main_v28 (F := Ideal) x0 x1 x2 (ix3 b l k)
      = heads (part 0 x0 x1 x2) (part 1 x0 x1 x2) (part 2 x0 x1 x2) b l
          ⟨k.val / 64, by have := k.isLt; omega⟩ ⟨k.val % 64, by omega⟩ := by
  rw [val_main_v28_apply, val_main_v27_apply, concat_idx, heads_apply]

/-! ## The output projection, and the whole layer -/

variable (x3 : (⟨S1024x1024, .f32⟩ : BufTy).Contents (Elt Ideal)) (x4 : (⟨S1024, .f32⟩ : BufTy).Contents (Elt Ideal))

/-- The last product's left operand is read at (b, l, k). -/
theorem out_lhs_idx (b : Fin 4) (l : Fin 2048) (j k : Fin 1024) :
    lidx_main_v29 (ix3 b l j) k = ix3 b l k :=
  funext fun a => by match a with | ⟨0, _⟩ => rfl | ⟨1, _⟩ => rfl | ⟨2, _⟩ => rfl

/-- The last product's right operand is read at (k, j). -/
theorem out_rhs_idx (b : Fin 4) (l : Fin 2048) (j k : Fin 1024) :
    ridx_main_v29 (ix3 b l j) k = ix2 k j :=
  funext fun a => by match a with | ⟨0, _⟩ => rfl | ⟨1, _⟩ => rfl

/-- The output bias, spread over batches and positions, is read at column j. -/
theorem out_bias_idx (b : Fin 4) (l : Fin 2048) (j : Fin 1024) :
    idx_main_v30 (idx_main_v31 (ix3 b l j)) = ix1 j :=
  funext fun a => by match a with | ⟨0, _⟩ => rfl

/-- THE REFERENCE PROGRAM'S RESULT IS THE SPECIFICATION: the heads' outputs side by side, times Wo, plus bo. -/
theorem result_eq : val_main_v32 (F := Ideal) x0 x1 x2 x3 x4 = result x0 x1 x2 x3 x4 := by
  funext i
  obtain ⟨b, l, j, rfl⟩ : ∃ (b : Fin 4) (l : Fin 2048) (j : Fin 1024), i = ix3 b l j := ⟨i 0, i 1, i 2, eq_ix3 i⟩
  rw [val_main_v32_apply, val_main_v29_apply, val_main_v31_apply, val_main_v30_apply, out_bias_idx]
  show _ = (∑ k : Fin 1024, heads (part 0 x0 x1 x2) (part 1 x0 x1 x2) (part 2 x0 x1 x2) b l
      ⟨k.val / 64, by have := k.isLt; omega⟩ ⟨k.val % 64, by omega⟩ * x3 (ix2 k j)) + x4 (ix1 j)
  refine congrArg (· + x4 (ix1 j)) (Finset.sum_congr rfl fun k _ => ?_)
  rw [out_lhs_idx, out_rhs_idx, concat_apply]

end Cert.Mha.Ref

end
-- ==== Proof.lean ====
/-
  Multi-head attention: a tiled two-call kernel against its plain reference, equal on the extended reals.

  The kernel projects `x` to queries, keys and values in one call (a `4 × 4` grid over batches and blocks of 512 rows,
  the result laid out per head), and in a second call computes, per batch and block of 512 query rows, the sixteen heads
  one after the other — scores, their softmax along the keys in the shifted form, the weighted values — contracting each
  head's output at once with its 64 rows of the output weight and adding the sixteen partial products onto zero, then the
  bias. The reference computes the projection, the scores, the softmax and the weighted values for all heads at once,
  lays the heads side by side as 1024 columns and contracts them with the whole output weight.

  On the extended reals a change of float format is the identity and every product and sum is exact, so both programs
  compute ONE function of the five arguments (`Cert.Mha.result`, Proof/Spec.lean). What joins the two sides is only a
  regrouping of a finite sum — the contraction over 1024 columns taken as sixteen consecutive blocks of 64 — together with
  `max (−∞) x = x` (the reference takes one more maximum with `−∞` after its row maximum) and `0 + x = x`. Addition on
  the extended reals is commutative and associative, so no entry needs to be finite and the precondition is not used.

  Modules: Spec (the function), Head (one head and the block's result at an entry), Region0 and Region1 (each call's
  output arrays from its blocks), KernelRun (the kernel program's run with the final contents kept), KernelValue (the
  kernel's result array is `result` of the arguments), RefRead (the reference's result term is `result` of the
  arguments). The ideal pass rewrote nothing, so `preserves` has no conjunct.
-/
import proofs.«127099_j90941637525735_2_alg».proof.Defs
import proofs.«127099_j90941637525735_2_alg».proof.Proof.Gen.Kernel
import proofs.«127099_j90941637525735_2_alg».proof.Proof.FrameKernel
import proofs.«127099_j90941637525735_2_alg».proof.Proof.Gen.KernelIdeal
import proofs.«127099_j90941637525735_2_alg».proof.Proof.FrameKernelIdeal
import proofs.«127099_j90941637525735_2_alg».proof.Proof.Gen.ReferenceIdeal
import proofs.«127099_j90941637525735_2_alg».proof.Proof.Gen.Pre_finite_inputs
import proofs.«127099_j90941637525735_2_alg».proof.Proof.Gen.ReferenceIdeal.Run
import proofs.«127099_j90941637525735_2_alg».proof.Proof.Gen.ReferenceIdeal.Read
import proofs.«127099_j90941637525735_2_alg».proof.Proof.KernelValue
import proofs.«127099_j90941637525735_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the result array at
    `Cert.Mha.result` of the arguments. -/
theorem algebraic : Cert.algebraic_KernelIdeal_ReferenceIdeal := by
  intro m ρ m' ρ' _ hagree
  refine ⟨_, Cert.Mha.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Mha.Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
